-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x10000 .f32) (main_arg1 : FVec F S10000x128 .f32) (main_arg2 : FVec F S128 .f32) (main_arg3 : FVec F S128x128 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 22
  | .vmem => 20
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S1x128, .f32⟩
  | .hbm, ⟨20, _⟩ => ⟨S1x128, .f32⟩
  | .hbm, ⟨21, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S400x128, .f32⟩
  | .local _ .vmem, ⟨19, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_5 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_5 : Index := 0#32
  ![v11.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S400x10000_S400 : S400x10000.Reduces [1] S400
  shapeCasts_S400_S400x1 : S400.ShapeCasts S400x1
  broadcasts_S400x1_S400x128 : S400x1.Broadcasts S400x128
  h_S400x128 : 0 < S400x128.numel
  shapeCasts_S400x128_S400x128 : S400x128.ShapeCasts S400x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hrank1 : 0 < grid1.rank
  k1_off1_inb : ∀ i : grid1.Coords, ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S_ : Shape := ⟨0, ![]⟩
abbrev S1x128 : Shape := ⟨2, ![1, 128]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S10000x10000, .i32⟩
  | .hbm, ⟨14, _⟩ => ⟨S10000x10000, .i32⟩
  | .hbm, ⟨15, _⟩ => ⟨S_, .i32⟩
  | .hbm, ⟨16, _⟩ => ⟨S10000x10000, .i32⟩
  | .hbm, ⟨17, _⟩ => ⟨S10000x10000, .i32⟩
  | .hbm, ⟨18, _⟩ => ⟨S10000x10000, .i1⟩
  | .hbm, ⟨19, _⟩ => ⟨S10000x10000, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S_, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S_, .f32⟩
  | .hbm, ⟨42, _⟩ => ⟨S10000x128, .f32⟩
  | .hbm, ⟨43, _⟩ => ⟨S10000x128, .i1⟩
  | .hbm, ⟨44, _⟩ => ⟨S_, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S_, .f32⟩
  | .hbm, ⟨54, _⟩ => ⟨S10000, .f32⟩
  | .hbm, ⟨55, _⟩ => ⟨S10000x1, .f32⟩
  | .hbm, ⟨56, _⟩ => ⟨S10000x128, .f32⟩
  | .hbm, ⟨57, _⟩ => ⟨S_, .f32⟩
  | .hbm, ⟨58, _⟩ => ⟨S_, .f32⟩
  | .hbm, ⟨59, _⟩ => ⟨S10000x1, .f32⟩
  | .hbm, ⟨60, _⟩ => ⟨S10000x1, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S1x128, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_call2_v0 : Ref sig .tc := ⟨.hbm, 58, rfl⟩
abbrev main_call2_v1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KRun.lean ====
/-
  The idealized kernel's whole run with its two result arrays NAMED: every weakly fair execution of @main ends,
  nothing faulting, with the second pallas_call's output array and the first one's at the contents the last
  segment boundary gives them, and the argument arrays as launched.  The run is the four segments of @main
  (host stretch, first region, host stretch, second region) launched together; what is read at the end is the
  thread's unscoped buffers at the last boundary's contents.
-/
import proofs.«131085_g64330020159590_cont_9to1_m_570_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result arrays at the last boundary's contents, the arguments unchanged. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v5) = W4 m ρ c (Proc.devRef .tc main_v5)
      ∧ r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       h c _ (mem_uc main_v5 (by decide)),
       h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.KRun

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The mathematics both programs compute, stated once on the extended reals, index by index.

  Nodes carry feature rows; `adj` is a dense n × n weight matrix.  One mean-aggregation layer sends the feature
  matrix `h` to  h·Ws + (adj·h / max(ε, row sum of adj))·Wn + b, row by row; the first layer then applies the leaky
  rectifier and both add the residual projection h·Wr + br.  The input features are W + b (the identity matrix
  times W is W).  The two ways of grouping the last two additions are equal because addition of extended reals is
  associative.
-/
import proofs.«131085_g64330020159590_cont_9to1_m_570_2_alg».proof.Proof.LibMatmul
import Idealize.ShloMosaic.PureOps.Ideal
import Idealize.ShloMosaic.Lib.ValueIdx

noncomputable section

open scoped BigOperators

namespace Cert.Sage

open Idealize.ShloMosaic Idealize.ShloMosaic.ValueIdx Cert.LibMatmul

/-- An a × b array of extended reals. -/
abbrev Mat (a b : Nat) := (⟨2, ![a, b]⟩ : Shape).Idx → EReal
/-- A length-a array of extended reals. -/
abbrev Vect (a : Nat) := (⟨1, ![a]⟩ : Shape).Idx → EReal

/-- The floor under a node's degree (the f32 nearest 1e-6, read exactly). -/
def eps : EReal := Ideal.ofBits .f32 0x358637BD#32
/-- The rectifier's slope on the negatives (the f32 nearest 0.01, read exactly). -/
def slope : EReal := Ideal.ofBits .f32 0x3C23D70A#32

/-- The leaky rectifier: x where x ≥ 0, slope · x elsewhere. -/
def leaky (x : EReal) : EReal :=
  Scalar.select (Ideal.cmp .oge x (Ideal.ofBits .f32 0x00000000#32)) x (slope * x)

/-- Row r's degree, floored at ε. -/
def degc {n : Nat} (adj : Mat n n) (r : Fin n) : EReal := max eps (∑ k : Fin n, adj (ix2 r k))

/-- The mean of the neighbours' features: (adj · h) with row r divided by its floored degree. -/
def neigh {n d : Nat} (adj : Mat n n) (h : Mat n d) : Mat n d :=
  fun i => Ideal.div (MM adj h i) (degc adj (i 0))

/-- One aggregation layer before its activation. -/
def conv {n d e : Nat} (adj : Mat n n) (h : Mat n d) (ws wn : Mat d e) (b : Vect e) : Mat n e :=
  fun i => MM h ws i + MM (neigh adj h) wn i + b (ix1 (i 1))

/-- The first layer: rectified, then the residual projection and its bias added one after the other. -/
def layerAct {n d e : Nat} (adj : Mat n n) (h : Mat n d) (ws wn : Mat d e) (b : Vect e) (wr : Mat d e) (br : Vect e) :
    Mat n e :=
  fun i => leaky (conv adj h ws wn b i) + MM h wr i + br (ix1 (i 1))

/-- The last layer: no activation. -/
def layerLin {n d e : Nat} (adj : Mat n n) (h : Mat n d) (ws wn : Mat d e) (b : Vect e) (wr : Mat d e) (br : Vect e) :
    Mat n e :=
  fun i => conv adj h ws wn b i + MM h wr i + br (ix1 (i 1))

/-- The input features: W with the bias added to every row. -/
def feat {n d : Nat} (W : Mat n d) (b : Vect d) : Mat n d := fun i => W i + b (ix1 (i 1))

/-- A one-row matrix read as a vector. -/
def rowOf {e : Nat} (b : Mat 1 e) : Vect e := fun j => b (ix2 (0 : Fin 1) (j 0))

/-- Adding the residual as one summand (projection plus bias) is adding its two parts in turn. -/
theorem add_residual (x r b : EReal) : x + (r + b) = x + r + b := (add_assoc x r b).symm

end Cert.Sage

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.LibBlockReads.lean ====
/-
  Two layout steps read at an index written by coordinates, for any extents.

  * A matrix `[a, b]` cast to `[a, 1, b]` (a unit axis put BETWEEN its two axes) reads, at `(i, u, j)`, the matrix at
    `(i, j)`: both have row-major position `i * b + j`.
  * A load through a unit-stride rectangle of a matrix, at the rectangle's own index `(y₀, y₁)`, reads the matrix at
    `(off₀ + y₀, off₁ + y₁)`.
-/
import Idealize.ShloMosaic.Lib.ValueIdx
import Idealize.ShloMosaic.Lib.Pipeline.Value

noncomputable section

namespace Cert.LibBlockReads

open Idealize.ShloMosaic Idealize.ShloMosaic.ValueIdx

/-- An `[a, b]` array cast to `[a, 1, b]` reads, at `(i, u, j)`, the operand at `(i, j)`, whatever the unit coordinate. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A load through a unit-stride rectangle of an `[n0, n1]` array reads, at the rectangle's index `y`, the array at the
    offsets plus `y`: the caller names the two coordinates and shows each is its offset plus `y`'s. -/
theorem ld_unit_ix2 {Val : EltTy → Type} {e : EltTy} {n0 n1 : ℕ} (X : (⟨2, ![n0, n1]⟩ : Shape).Idx → Val e)
    (off size : Fin 2 → ℕ) (inb : ∀ a, off a + size a ≤ (⟨2, ![n0, n1]⟩ : Shape).size a)
    (y : (Rect.unit (s := ⟨2, ![n0, n1]⟩) off size inb).shape.Idx) (i : Fin n0) (j : Fin n1)
    (hi : i.val = off 0 + (y 0).val) (hj : j.val = off 1 + (y 1).val) :
    View.ld X (Rect.unit off size inb) y = X (ix2 i j) :=
  congrArg X (funext fun a => Fin.ext (by
    match a with
    | ⟨0, _⟩ => show off 0 + 1 * (y 0).val = i.val; omega
    | ⟨1, _⟩ => show off 1 + 1 * (y 1).val = j.val; omega))

end Cert.LibBlockReads

end
-- ==== Proof.RegionLaw.lean ====
/-
  One row of a block against one row of the whole array.

  A grid point holds some rows of the adjacency matrix and the matching rows of the feature matrix.  The layer's value
  at a row depends on that row of the adjacency matrix (its sum, and its product with the whole feature matrix) and on
  that row of the feature matrix (its products with the three weight matrices).  So when row p of the block is row r
  of the array, the layer computed from the block at (p, q) is the layer computed from the array at (r, q): every sum
  involved runs over the same terms.
-/
import proofs.«131085_g64330020159590_cont_9to1_m_570_2_alg».proof.Proof.Spec

noncomputable section

open scoped BigOperators

namespace Cert.Sage

open Idealize.ShloMosaic Idealize.ShloMosaic.ValueIdx Cert.LibMatmul

section Block
variable {n d e A : Nat} (adj : Mat n n) (h : Mat n d) (x0 : Mat A n) (x12 : Mat A d) (r : Fin n) (p : Fin A)
  (h0 : ∀ k : Fin n, x0 (ix2 p k) = adj (ix2 r k)) (h12 : ∀ k : Fin d, x12 (ix2 p k) = h (ix2 r k))

include h12 in
/-- Row p of the block's features times a weight matrix is row r of the array's features times it. -/
theorem MM_row (w : Mat d e) (q : Fin e) : MM x12 w (ix2 p q) = MM h w (ix2 r q) :=
  (MM_apply x12 w p q).trans ((Finset.sum_congr rfl fun k _ => by rw [h12 k]).trans (MM_apply h w r q).symm)

include h0 in
/-- Row p of the block's adjacency times the features is row r of the array's adjacency times them. -/
theorem MM_adj_row (k : Fin d) : MM x0 h (ix2 p k) = MM adj h (ix2 r k) :=
  (MM_apply x0 h p k).trans ((Finset.sum_congr rfl fun k' _ => by rw [h0 k']).trans (MM_apply adj h r k).symm)

include h0 in
/-- The block's row sum is the array's. -/
theorem deg_row : (∑ k' : Fin n, x0 (ix2 p k')) = ∑ k' : Fin n, adj (ix2 r k') :=
  Finset.sum_congr rfl fun k' _ => h0 k'

include h0 h12 in
/-- The aggregation before its activation, computed from the block at (p, q), is the array's at (r, q). -/
theorem conv_block (ws wn : Mat d e) (b : Vect e) (q : Fin e) :
    MM x12 ws (ix2 p q)
        + (∑ k : Fin d, Ideal.div (MM x0 h (ix2 p k)) (max eps (∑ k' : Fin n, x0 (ix2 p k'))) * wn (ix2 k q))
        + b (ix1 q)
      = conv adj h ws wn b (ix2 r q) := by
  rw [MM_row h x12 r p h12 ws q, deg_row adj x0 r p h0]
  have e2 : (∑ k : Fin d, Ideal.div (MM x0 h (ix2 p k)) (max eps (∑ k' : Fin n, adj (ix2 r k'))) * wn (ix2 k q))
      = MM (neigh adj h) wn (ix2 r q) :=
    Finset.sum_congr rfl fun k _ => by rw [MM_adj_row adj h x0 r p h0 k]; rfl
  rw [e2]
  rfl

include h0 h12 in
/-- The first layer computed from the block at (p, q) is the array's at (r, q). -/
theorem layerAct_block (ws wn : Mat d e) (b : Vect e) (wr : Mat d e) (br : Vect e) (q : Fin e) :
    leaky (MM x12 ws (ix2 p q)
        + (∑ k : Fin d, Ideal.div (MM x0 h (ix2 p k)) (max eps (∑ k' : Fin n, x0 (ix2 p k'))) * wn (ix2 k q))
        + b (ix1 q))
      + MM x12 wr (ix2 p q) + br (ix1 q)
      = layerAct adj h ws wn b wr br (ix2 r q) := by
  rw [conv_block adj h x0 x12 r p h0 h12 ws wn b q, MM_row h x12 r p h12 wr q]
  rfl

include h0 h12 in
/-- The last layer computed from the block at (p, q) is the array's at (r, q). -/
theorem layerLin_block (ws wn : Mat d e) (b : Vect e) (wr : Mat d e) (br : Vect e) (q : Fin e) :
    MM x12 ws (ix2 p q)
        + (∑ k : Fin d, Ideal.div (MM x0 h (ix2 p k)) (max eps (∑ k' : Fin n, x0 (ix2 p k'))) * wn (ix2 k q))
        + b (ix1 q)
      + MM x12 wr (ix2 p q) + br (ix1 q)
      = layerLin adj h ws wn b wr br (ix2 r q) := by
  rw [conv_block adj h x0 x12 r p h0 h12 ws wn b q, MM_row h x12 r p h12 wr q]
  rfl

end Block

end Cert.Sage

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KPayload.lean ====
/-
  The two kernel bodies' arithmetic read at an index, at the ideal values.  Each body computes, for a block of 400
  rows, the products of the block's own feature rows with the self weights, of the normalized aggregate with the
  neighbour weights, and of the feature rows with the residual weights, and adds the two biases down the rows.  The
  aggregate is the adjacency block times the features, each row divided by the larger of the floor ε and that row's
  sum.  The first body passes the layer through the leaky rectifier before the residual is added; the second does not.
-/
import proofs.«131085_g64330020159590_cont_9to1_m_570_2_alg».proof.Proof.Gen.KernelIdeal.Skeleton
import proofs.«131085_g64330020159590_cont_9to1_m_570_2_alg».proof.Proof.Spec
import proofs.«131085_g64330020159590_cont_9to1_m_570_2_alg».proof.Proof.LibMatmul
import proofs.«131085_g64330020159590_cont_9to1_m_570_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section
open scoped BigOperators
namespace Cert.KernelIdeal.KPayload
open Idealize.ShloMosaic Idealize.ShloMosaic.ValueIdx Idealize.SL.Sem Cert.KernelIdeal Cert.LibMatmul Cert.LibRowOps

/-- A length-a array cast to an a × 1 column reads, at (i, u), its entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The 400 × 128 by 128 × 128 product into the zero accumulator is the matrix product. -/
theorem mm_small (x : FVec Ideal S400x128 .f32) (w : FVec Ideal S128x128 .f32) :
    matmul dot_S400x128_S128x128_S400x128_1_0_0_1_n_n none x w (constant (F := Ideal) S400x128 .f32 0x00000000#32) = MM x w :=
  matmul_zero_eq dot_S400x128_S128x128_S400x128_1_0_0_1_n_n rfl rfl rfl rfl rfl rfl none x w

/-- The 400 × 10000 by 10000 × 128 product into the zero accumulator is the matrix product. -/
theorem mm_big (x : FVec Ideal S400x10000 .f32) (w : FVec Ideal S10000x128 .f32) :
    matmul dot_S400x10000_S10000x128_S400x128_1_0_0_1_n_n none x w (constant (F := Ideal) S400x128 .f32 0x00000000#32) = MM x w :=
  matmul_zero_eq dot_S400x10000_S10000x128_S400x128_1_0_0_1_n_n rfl rfl rfl rfl rfl rfl none x w

/-- The floored degree of row p, kept as a column and repeated across the columns: at (p, k) it is the larger
    of the floor and the sum of row p. -/
theorem denom_apply (v0 : FVec Ideal S400x10000 .f32) (hφ : FTy.f32 = FTy.f32 ∨ FTy.f32 = FTy.bf16)
    (hacc : (0x00000000#32 : BitVec 32) = 0x00000000#32) (p : Fin 400) (k : Fin 128) :
    broadcastTo S400x128
        (maximumf (broadcast S400x1 (FloatOps.ofBits (F := Ideal) .f32 0x358637BD#32))
          (shapeCast S400x1 (multiReduction (F := Ideal) .add [1] S400 v0 0x00000000#32 Gen.reduces_S400x10000_S400 hφ hacc)
            Gen.shapeCasts_S400_S400x1))
        Gen.broadcasts_S400x1_S400x128 (ix2 p k)
      = max Sage.eps (∑ k' : Fin 10000, v0 (ix2 p k')) := by
  rw [col_bcast_apply, maximumf_apply, broadcast_apply, shapeCast_a_a1_apply, rowsum]
  rfl

/-- The normalized aggregate times a weight matrix, at (p, q). -/
theorem agg_apply (v0 : FVec Ideal S400x10000 .f32) (N : FVec Ideal S400x128 .f32) (w : FVec Ideal S128x128 .f32)
    (hφ : FTy.f32 = FTy.f32 ∨ FTy.f32 = FTy.bf16) (hacc : (0x00000000#32 : BitVec 32) = 0x00000000#32)
    (p : Fin 400) (q : Fin 128) :
    MM (divf N
        (broadcastTo S400x128
          (maximumf (broadcast S400x1 (FloatOps.ofBits (F := Ideal) .f32 0x358637BD#32))
            (shapeCast S400x1 (multiReduction (F := Ideal) .add [1] S400 v0 0x00000000#32 Gen.reduces_S400x10000_S400 hφ hacc)
              Gen.shapeCasts_S400_S400x1))
          Gen.broadcasts_S400x1_S400x128)) w (ix2 p q)
      = ∑ k : Fin 128, Ideal.div (N (ix2 p k)) (max Sage.eps (∑ k' : Fin 10000, v0 (ix2 p k'))) * w (ix2 k q) := by
  rw [MM_apply]
  refine Finset.sum_congr rfl fun k _ => ?_
  rw [divf_apply, denom_apply]

/-- The first body's stored value at (p, q): the rectified layer, then the residual projection and its bias. -/
theorem pay0_apply (v0 : Vec Ideal S400x10000 .f32) (v1 : Vec Ideal S10000x128 .f32) (v12 : Vec Ideal S400x128 .f32)
    (v14 v16 : Vec Ideal S128x128 .f32) (v19 : Vec Ideal S1x128 .f32) (v28 : Vec Ideal S128x128 .f32) (v31 : Vec Ideal S1x128 .f32)
    (p : Fin 400) (q : Fin 128) :
    Gen.k0_pay1 (F := Ideal) v0 v1 v12 v14 v16 v19 v28 v31 (ix2 p q)
      = Sage.leaky (MM v12 v14 (ix2 p q)
          + (∑ k : Fin 128, Ideal.div (MM v0 v1 (ix2 p k)) (max Sage.eps (∑ k' : Fin 10000, v0 (ix2 p k'))) * v16 (ix2 k q))
          + v19 (ix2 (0 : Fin 1) q))
        + MM v12 v28 (ix2 p q) + v31 (ix2 (0 : Fin 1) q) := by
  unfold Gen.k0_pay1
  simp only [addf_apply, select_apply, cmpf_apply, mulf_apply, broadcast_apply, shapeCast_self, mm_small, mm_big,
    broadcastTo_1b_ab_apply]
  rw [agg_apply]
  rfl

/-- The second body's stored value at (p, q): the layer without activation, then the residual projection and its bias. -/
theorem pay1_apply (v0 : Vec Ideal S400x10000 .f32) (v1 : Vec Ideal S10000x128 .f32) (v12 : Vec Ideal S400x128 .f32)
    (v14 v16 : Vec Ideal S128x128 .f32) (v19 : Vec Ideal S1x128 .f32) (v23 : Vec Ideal S128x128 .f32) (v26 : Vec Ideal S1x128 .f32)
    (p : Fin 400) (q : Fin 128) :
    Gen.k1_pay1 (F := Ideal) v0 v1 v12 v14 v16 v19 v23 v26 (ix2 p q)
      = MM v12 v14 (ix2 p q)
          + (∑ k : Fin 128, Ideal.div (MM v0 v1 (ix2 p k)) (max Sage.eps (∑ k' : Fin 10000, v0 (ix2 p k'))) * v16 (ix2 k q))
          + v19 (ix2 (0 : Fin 1) q)
        + MM v12 v23 (ix2 p q) + v26 (ix2 (0 : Fin 1) q) := by
  unfold Gen.k1_pay1
  simp only [addf_apply, shapeCast_self, mm_small, mm_big, broadcastTo_1b_ab_apply]
  rw [agg_apply]

end Cert.KernelIdeal.KPayload
end
-- ==== Proof.RegionValue0.lean ====
/-
  The first layer's region as one function of the arrays it finds.

  The grid has 25 points.  Point t is handed rows 400 t … 400 t + 399 of the 10000 × 10000 adjacency matrix and the whole
  of the six other operands (the 10000 × 128 feature matrix, three 128 × 128 weight matrices, two 1 × 128 bias rows); it
  also reads rows 400 t … 400 t + 399 of the feature matrix directly, and stores one 400 × 128 block, which is written
  back as the same rows of the 10000 × 128 output.  Entry (p, q) of that block depends only on row 400 t + p of the
  adjacency matrix and of the feature matrix, and is the layer's value at (400 t + p, q).  The 25 blocks tile the
  output (row r lies in block r / 400), so after the region the output array is the layer of the operands, entry by
  entry.
-/
import proofs.«131085_g64330020159590_cont_9to1_m_570_2_alg».proof.Proof.Gen.KernelIdeal.Frame
import proofs.«131085_g64330020159590_cont_9to1_m_570_2_alg».proof.Proof.Spec
import proofs.«131085_g64330020159590_cont_9to1_m_570_2_alg».proof.Proof.LibBlockReads
import proofs.«131085_g64330020159590_cont_9to1_m_570_2_alg».proof.Proof.RegionLaw
import proofs.«131085_g64330020159590_cont_9to1_m_570_2_alg».proof.Proof.KPayload
import Idealize.ShloMosaic.PureOps.Ideal.Laws
import Idealize.ShloMosaic.Lib.Pipeline.Value
import Idealize.ShloMosaic.Lib.Tactic

noncomputable section
open scoped BigOperators
namespace Cert.KernelIdeal.Region
open Idealize.ShloMosaic Idealize.ShloMosaic.ValueIdx Idealize.ShloMosaic.TcCoe Idealize.SL.Sem Cert.KernelIdeal Cert.LibMatmul
open Idealize.ShloMosaic.Pipeline (Dat)
open Cert.KernelIdeal.Facts₀ Cert.KernelIdeal.Facts

variable {F : FTy → Type} [FloatOps F]

theorem hz0 : (![0, 0] : Fin 2 → Nat) = fun _ => 0 := funext fun a => by fin_cases a <;> rfl

/-! ## What the body's one store leaves -/

/-- The grid point's output block is the body's arithmetic applied to the seven blocks the point is handed and to the
    rows of the second block that start at the point's row offset. -/
theorem piece0 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole)
    (x0 : Vec F S400x10000 .f32) (x1 : Vec F S10000x128 .f32) (x2 : Vec F S128x128 .f32) (x3 : Vec F S128x128 .f32) (x4 : Vec F S1x128 .f32) (x5 : Vec F S128x128 .f32) (x6 : Vec F S1x128 .f32) :
    Gen.out0_A_7 c i arg1 harg1 arg2 harg2 arg3 harg3 arg4 harg4 arg5 harg5 arg6 harg6 arg7 harg7 arg8 harg8 x0 x1 x2 x3 x4 x5 x6
      = Gen.k0_pay1 x0 x1 (View.ld x1 (Rect.unit (s := S10000x128) (k0_off1 i) S400x128.size (k0_off1_inb i))) x2 x3 x4 x5 x6 := by
  unfold Gen.out0_A_7
  rw [View.read_writes_eq_canon _ _ _ (Gen.cover0_A_7 c i arg1 harg1 arg2 harg2 arg3 harg3 arg4 harg4 arg5 harg5 arg6 harg6 arg7 harg7 arg8 harg8 x0 x1 x2 x3 x4 x5 x6)]
  unfold Gen.kernelRun0_A
  dsimp only
  sl_unfold_words
  rw [View.canon_unit_zero hz0]
  simp only [View.readAt_eq_ld, harg1.read_unread, harg2.read_unread, harg3.read_unread, harg4.read_unread, harg5.read_unread, harg6.read_unread, harg7.read_unread, View.ld_unit_zero (S := S400x10000) hz0, View.ld_unit_zero (S := S10000x128) hz0, View.ld_unit_zero (S := S128x128) hz0, View.ld_unit_zero (S := S1x128) hz0]

/-! ## Where each block sits in its array -/

/-- Decided once over the 25 grid points: point t's output block and its adjacency block are block row t; the other six
    windows are whole arrays; the body's extra read of the features starts at row 400 t. -/
theorem idx_facts0 : ∀ t : Fin cfg0.N,
    win0_7.index t (0 : Fin 2) = t.val
    ∧ win0_7.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ k0_off1 (grid0.coords t) 0 = 400 * t.val
    ∧ k0_off1 (grid0.coords t) 1 = 0 :=
  (by decide +kernel : ∀ t : Fin grid0.N, _)

variable (V : (c : Dev nD) → (b : Ref sig .tc) → Buf (Elt Ideal) ((c : Thread nD τ).loc b))

/-- Row p of point t's adjacency block is row 400 t + p of the adjacency matrix. -/
theorem blk0_0_apply (c : Dev nD) (t : Fin cfg0.N) (p : Fin 400) (k : Fin 10000) (r : Fin 10000) (hr : r.val = 400 * t.val + p.val) :
    (Gen.iblk0 (F := Ideal) V c 0 t : Vec Ideal S400x10000 .f32) (ix2 p k) = (V c main_arg0 : Vec Ideal S10000x10000 .f32) (ix2 r k) := by
  obtain ⟨e70, e71, e00, e01, e10, e11, e20, e21, e30, e31, e40, e41, e50, e51, e60, e61, ek0, ek1⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- Window 1's block is its whole array at every point. -/
theorem blk0_1 (c : Dev nD) (t : Fin cfg0.N) :
    (Gen.iblk0 (F := Ideal) V c 1 t : Vec Ideal S10000x128 .f32) = V c main_v2 := by
  obtain ⟨e70, e71, e00, e01, e10, e11, e20, e21, e30, e31, e40, e41, e50, e51, e60, e61, ek0, ek1⟩ := idx_facts0 t
  funext y
  show V c main_v2 (((cfg0.win 1).blk t).view.emb y) = V c main_v2 y
  refine congrArg (V c main_v2) (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- Window 2's block is its whole array at every point. -/
theorem blk0_2 (c : Dev nD) (t : Fin cfg0.N) :
    (Gen.iblk0 (F := Ideal) V c 2 t : Vec Ideal S128x128 .f32) = V c main_arg3 := by
  obtain ⟨e70, e71, e00, e01, e10, e11, e20, e21, e30, e31, e40, e41, e50, e51, e60, e61, ek0, ek1⟩ := idx_facts0 t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array at every point. -/
theorem blk0_3 (c : Dev nD) (t : Fin cfg0.N) :
    (Gen.iblk0 (F := Ideal) V c 3 t : Vec Ideal S128x128 .f32) = V c main_arg4 := by
  obtain ⟨e70, e71, e00, e01, e10, e11, e20, e21, e30, e31, e40, e41, e50, e51, e60, e61, ek0, ek1⟩ := idx_facts0 t
  funext y
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array at every point. -/
theorem blk0_4 (c : Dev nD) (t : Fin cfg0.N) :
    (Gen.iblk0 (F := Ideal) V c 4 t : Vec Ideal S1x128 .f32) = V c main_v3 := by
  obtain ⟨e70, e71, e00, e01, e10, e11, e20, e21, e30, e31, e40, e41, e50, e51, e60, e61, ek0, ek1⟩ := idx_facts0 t
  funext y
  show V c main_v3 (((cfg0.win 4).blk t).view.emb y) = V c main_v3 y
  refine congrArg (V c main_v3) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem blk0_5 (c : Dev nD) (t : Fin cfg0.N) :
    (Gen.iblk0 (F := Ideal) V c 5 t : Vec Ideal S128x128 .f32) = V c main_arg6 := by
  obtain ⟨e70, e71, e00, e01, e10, e11, e20, e21, e30, e31, e40, e41, e50, e51, e60, e61, ek0, ek1⟩ := idx_facts0 t
  funext y
  show V c main_arg6 (((cfg0.win 5).blk t).view.emb y) = V c main_arg6 y
  refine congrArg (V c main_arg6) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every point. -/
theorem blk0_6 (c : Dev nD) (t : Fin cfg0.N) :
    (Gen.iblk0 (F := Ideal) V c 6 t : Vec Ideal S1x128 .f32) = V c main_v4 := by
  obtain ⟨e70, e71, e00, e01, e10, e11, e20, e21, e30, e31, e40, e41, e50, e51, e60, e61, ek0, ek1⟩ := idx_facts0 t
  funext y
  show V c main_v4 (((cfg0.win 6).blk t).view.emb y) = V c main_v4 y
  refine congrArg (V c main_v4) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## One entry of a point's output block -/

/-- The body's arithmetic at entry y of the block, when row y₀ of the adjacency block and of the feature rows read are
    row r of the arrays and the other blocks are the whole arrays, is the layer at (r, y₁). -/
theorem point0 (adj : Vec Ideal S10000x10000 .f32) (h : Vec Ideal S10000x128 .f32) (ws wn : Vec Ideal S128x128 .f32)
    (b : Vec Ideal S1x128 .f32) (wr : Vec Ideal S128x128 .f32) (br : Vec Ideal S1x128 .f32)
    (x0 : Vec Ideal S400x10000 .f32) (x1 : Vec Ideal S10000x128 .f32) (x12 : Vec Ideal S400x128 .f32)
    (x2 x3 : Vec Ideal S128x128 .f32) (x4 : Vec Ideal S1x128 .f32) (x5 : Vec Ideal S128x128 .f32) (x6 : Vec Ideal S1x128 .f32)
    (y : S400x128.Idx) (r : Fin 10000)
    (h0 : ∀ k : Fin 10000, x0 (ix2 (y 0) k) = adj (ix2 r k)) (h1 : x1 = h)
    (h12 : ∀ k : Fin 128, x12 (ix2 (y 0) k) = h (ix2 r k))
    (h2 : x2 = ws) (h3 : x3 = wn) (h4 : x4 = b) (h5 : x5 = wr) (h6 : x6 = br) :
    Gen.k0_pay1 (F := Ideal) x0 x1 x12 x2 x3 x4 x5 x6 y
      = Sage.layerAct adj h ws wn (Sage.rowOf b) wr (Sage.rowOf br) (ix2 r (y 1)) := by
  subst h1 h2 h3 h4 h5 h6
  obtain ⟨p, q, rfl⟩ : ∃ (p : Fin 400) (q : Fin 128), y = ix2 p q := ⟨y 0, y 1, eq_ix2 y⟩
  exact (KPayload.pay0_apply x0 x1 x12 x2 x3 x4 x5 x6 p q).trans
    (Sage.layerAct_block adj x1 x0 x12 r p h0 h12 x2 x3 (Sage.rowOf x4) x5 (Sage.rowOf x6) q)

/-! ## What a point writes back, and the whole array -/

/-- What point t writes back is block t of the layer of the arrays the region finds. -/
theorem flushed_eq0 (c : Dev nD) (t : Fin cfg0.N) :
    (Gen.dat0 (F := Ideal) V c).flushed 7 t
      = ((cfg0.win 7).blk t).view.read (Elt Ideal) (Sage.layerAct (V c main_arg0) (V c main_v2) (V c main_arg3) (V c main_arg4) (Sage.rowOf (V c main_v3)) (V c main_arg6) (Sage.rowOf (V c main_v4))) := by
  show (cfg0.win 7).cut (grid0.coords t) ((Gen.dat0 (F := Ideal) V c).after 7 t) = _
  rw [Gen.after0_7]
  unfold Gen.outsAt0
  rw [piece0]
  obtain ⟨e70, e71, e00, e01, e10, e11, e20, e21, e30, e31, e40, e41, e50, e51, e60, e61, ek0, ek1⟩ := idx_facts0 t
  have hN : grid0.N = 25 := Gen.N_0
  have ht : t.val < grid0.N := t.isLt
  funext y
  have hy0 : (y 0).val < 400 := (y 0).isLt
  have hy1 : (y 1).val < 128 := (y 1).isLt
  have hr : 400 * t.val + (y 0).val < 10000 := by omega
  refine (point0 (V c main_arg0) (V c main_v2) (V c main_arg3) (V c main_arg4) (V c main_v3) (V c main_arg6) (V c main_v4)
    (Gen.iblk0 (F := Ideal) V c 0 t) (Gen.iblk0 (F := Ideal) V c 1 t)
    (View.ld (Gen.iblk0 (F := Ideal) V c 1 t) (Rect.unit (s := S10000x128) (k0_off1 (grid0.coords t)) S400x128.size (k0_off1_inb (grid0.coords t))))
    (Gen.iblk0 (F := Ideal) V c 2 t) (Gen.iblk0 (F := Ideal) V c 3 t) (Gen.iblk0 (F := Ideal) V c 4 t)
    (Gen.iblk0 (F := Ideal) V c 5 t) (Gen.iblk0 (F := Ideal) V c 6 t) y ⟨400 * t.val + (y 0).val, hr⟩
    (fun k => blk0_0_apply V c t (y 0) k ⟨400 * t.val + (y 0).val, hr⟩ rfl) (blk0_1 V c t) ?_
    (blk0_2 V c t) (blk0_3 V c t) (blk0_4 V c t) (blk0_5 V c t) (blk0_6 V c t)).trans ?_
  · intro k
    rw [blk0_1 V c t]
    exact Cert.LibBlockReads.ld_unit_ix2 (V c main_v2) (k0_off1 (grid0.coords t)) S400x128.size (k0_off1_inb (grid0.coords t))
      (ix2 (y 0) k) ⟨400 * t.val + (y 0).val, hr⟩ k (by show 400 * t.val + (y 0).val = k0_off1 (grid0.coords t) 0 + (y 0).val; omega)
      (by show k.val = k0_off1 (grid0.coords t) 1 + k.val; omega)
  · refine (congrArg (Sage.layerAct (V c main_arg0) (V c main_v2) (V c main_arg3) (V c main_arg4) (Sage.rowOf (V c main_v3)) (V c main_arg6) (Sage.rowOf (V c main_v4))) (funext fun a => Fin.ext ?_)).symm
    match a with
    | ⟨0, _⟩ => show win0_7.index t (0 : Fin 2) * 400 + 1 * (y 0).val = 400 * t.val + (y 0).val; omega
    | ⟨1, _⟩ => show win0_7.index t (1 : Fin 2) * 128 + 1 * (y 1).val = (y 1).val; omega

/-- An index of the output array is in point t's block iff each coordinate is in the block's range on its axis. -/
theorem mem_blk0 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v5).slice (win0_7.rect t)).set ↔ _
  rw [View.set_slice_whole, Rect.mem_set_unit]
  exact Iff.rfl

/-- Row r of the output array lies in the block of point r / 400. -/
theorem cover0 (i : S10000x128.Idx) :
    ∃ t : Fin cfg0.N, (cfg0.win 7).flush t = true ∧ i ∈ ((cfg0.win 7).blk t).view.set := by
  have hN : grid0.N = 25 := Gen.N_0
  have hi0 : (i 0).val < 10000 := (i 0).isLt
  have hi1 : (i 1).val < 128 := (i 1).isLt
  have htN : (i 0).val / 400 < grid0.N := by omega
  obtain ⟨e70, e71, e00, e01, e10, e11, e20, e21, e30, e31, e40, e41, e50, e51, e60, e61, ek0, ek1⟩ := idx_facts0 ⟨(i 0).val / 400, htN⟩
  refine ⟨⟨(i 0).val / 400, htN⟩, Gen.flush0_7 _, ?_⟩
  rw [mem_blk0]
  intro a
  match a with
  | ⟨0, _⟩ =>
    show win0_7.index ⟨(i 0).val / 400, htN⟩ (0 : Fin 2) * 400 ≤ (i 0).val ∧ (i 0).val < win0_7.index ⟨(i 0).val / 400, htN⟩ (0 : Fin 2) * 400 + 400
    rw [e70]; show (i 0).val / 400 * 400 ≤ (i 0).val ∧ (i 0).val < (i 0).val / 400 * 400 + 400; omega
  | ⟨1, _⟩ =>
    show win0_7.index ⟨(i 0).val / 400, htN⟩ (1 : Fin 2) * 128 ≤ (i 1).val ∧ (i 1).val < win0_7.index ⟨(i 0).val / 400, htN⟩ (1 : Fin 2) * 128 + 128
    rw [e71]; omega

/-- The output array after the region: the layer of the arrays the region finds. -/
theorem arrAt0 (c : Dev nD) :
    (Gen.dat0 (F := Ideal) V c).arrAt 7 cfg0.N
      = Sage.layerAct (V c main_arg0) (V c main_v2) (V c main_arg3) (V c main_arg4) (Sage.rowOf (V c main_v3)) (V c main_arg6) (Sage.rowOf (V c main_v4)) :=
  (Gen.dat0 (F := Ideal) V c).arrAt_eq_of_cover 7 (Sage.layerAct (V c main_arg0) (V c main_v2) (V c main_arg3) (V c main_arg4) (Sage.rowOf (V c main_v3)) (V c main_arg6) (Sage.rowOf (V c main_v4))) (fun t _ => flushed_eq0 V c t) (cover0)

end Cert.KernelIdeal.Region
end
-- ==== Proof.RegionValue1.lean ====
/-
  The last layer's region as one function of the arrays it finds.

  The same 25-point grid as the first layer's region: point t is handed rows 400 t … 400 t + 399 of the 10000 × 10000
  adjacency matrix and the whole of the six other operands (the 10000 × 128 matrix of the first layer's outputs, three
  128 × 128 weight matrices, two 1 × 128 bias rows); it also reads rows 400 t … 400 t + 399 of the feature matrix
  directly, and stores one 400 × 128 block, written back as the same rows of the 10000 × 128 output.  Entry (p, q) of
  that block is the layer's value (no rectifier here) at (400 t + p, q), and the 25 blocks tile the output, so after the
  region the output array is the layer of the operands, entry by entry.
-/
import proofs.«131085_g64330020159590_cont_9to1_m_570_2_alg».proof.Proof.Gen.KernelIdeal.Frame
import proofs.«131085_g64330020159590_cont_9to1_m_570_2_alg».proof.Proof.Spec
import proofs.«131085_g64330020159590_cont_9to1_m_570_2_alg».proof.Proof.LibBlockReads
import proofs.«131085_g64330020159590_cont_9to1_m_570_2_alg».proof.Proof.RegionLaw
import proofs.«131085_g64330020159590_cont_9to1_m_570_2_alg».proof.Proof.KPayload
import Idealize.ShloMosaic.PureOps.Ideal.Laws
import Idealize.ShloMosaic.Lib.Pipeline.Value
import Idealize.ShloMosaic.Lib.Tactic

noncomputable section
open scoped BigOperators
namespace Cert.KernelIdeal.Region
open Idealize.ShloMosaic Idealize.ShloMosaic.ValueIdx Idealize.ShloMosaic.TcCoe Idealize.SL.Sem Cert.KernelIdeal Cert.LibMatmul
open Idealize.ShloMosaic.Pipeline (Dat)
open Cert.KernelIdeal.Facts₀ Cert.KernelIdeal.Facts

variable {F : FTy → Type} [FloatOps F]

theorem hz1 : (![0, 0] : Fin 2 → Nat) = fun _ => 0 := funext fun a => by fin_cases a <;> rfl

/-! ## What the body's one store leaves -/

/-- The grid point's output block is the body's arithmetic applied to the seven blocks the point is handed and to the
    rows of the second block that start at the point's row offset. -/
theorem piece1 (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole)
    (x0 : Vec F S400x10000 .f32) (x1 : Vec F S10000x128 .f32) (x2 : Vec F S128x128 .f32) (x3 : Vec F S128x128 .f32) (x4 : Vec F S1x128 .f32) (x5 : Vec F S128x128 .f32) (x6 : Vec F S1x128 .f32) :
    Gen.out1_A_7 c i arg1 harg1 arg2 harg2 arg3 harg3 arg4 harg4 arg5 harg5 arg6 harg6 arg7 harg7 arg8 harg8 x0 x1 x2 x3 x4 x5 x6
      = Gen.k1_pay1 x0 x1 (View.ld x1 (Rect.unit (s := S10000x128) (k1_off1 i) S400x128.size (k1_off1_inb i))) x2 x3 x4 x5 x6 := by
  unfold Gen.out1_A_7
  rw [View.read_writes_eq_canon _ _ _ (Gen.cover1_A_7 c i arg1 harg1 arg2 harg2 arg3 harg3 arg4 harg4 arg5 harg5 arg6 harg6 arg7 harg7 arg8 harg8 x0 x1 x2 x3 x4 x5 x6)]
  unfold Gen.kernelRun1_A
  dsimp only
  sl_unfold_words
  rw [View.canon_unit_zero hz1]
  simp only [View.readAt_eq_ld, harg1.read_unread, harg2.read_unread, harg3.read_unread, harg4.read_unread, harg5.read_unread, harg6.read_unread, harg7.read_unread, View.ld_unit_zero (S := S400x10000) hz1, View.ld_unit_zero (S := S10000x128) hz1, View.ld_unit_zero (S := S128x128) hz1, View.ld_unit_zero (S := S1x128) hz1]

/-! ## Where each block sits in its array -/

/-- Decided once over the 25 grid points: point t's output block and its adjacency block are block row t; the other six
    windows are whole arrays; the body's extra read of the features starts at row 400 t. -/
theorem idx_facts1 : ∀ t : Fin cfg1.N,
    win1_7.index t (0 : Fin 2) = t.val
    ∧ win1_7.index t (1 : Fin 2) = 0
    ∧ win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ k1_off1 (grid1.coords t) 0 = 400 * t.val
    ∧ k1_off1 (grid1.coords t) 1 = 0 :=
  (by decide +kernel : ∀ t : Fin grid1.N, _)

variable (V : (c : Dev nD) → (b : Ref sig .tc) → Buf (Elt Ideal) ((c : Thread nD τ).loc b))

/-- Row p of point t's adjacency block is row 400 t + p of the adjacency matrix. -/
theorem blk1_0_apply (c : Dev nD) (t : Fin cfg1.N) (p : Fin 400) (k : Fin 10000) (r : Fin 10000) (hr : r.val = 400 * t.val + p.val) :
    (Gen.iblk1 (F := Ideal) V c 0 t : Vec Ideal S400x10000 .f32) (ix2 p k) = (V c main_arg0 : Vec Ideal S10000x10000 .f32) (ix2 r k) := by
  obtain ⟨e70, e71, e00, e01, e10, e11, e20, e21, e30, e31, e40, e41, e50, e51, e60, e61, ek0, ek1⟩ := idx_facts1 t
  show V c main_arg0 (((cfg1.win 0).blk t).view.emb (ix2 p k)) = V c main_arg0 (ix2 r k)
  refine congrArg (V c main_arg0) (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- Window 1's block is its whole array at every point. -/
theorem blk1_1 (c : Dev nD) (t : Fin cfg1.N) :
    (Gen.iblk1 (F := Ideal) V c 1 t : Vec Ideal S10000x128 .f32) = V c main_v5 := by
  obtain ⟨e70, e71, e00, e01, e10, e11, e20, e21, e30, e31, e40, e41, e50, e51, e60, e61, ek0, ek1⟩ := idx_facts1 t
  funext y
  show V c main_v5 (((cfg1.win 1).blk t).view.emb y) = V c main_v5 y
  refine congrArg (V c main_v5) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- Window 2's block is its whole array at every point. -/
theorem blk1_2 (c : Dev nD) (t : Fin cfg1.N) :
    (Gen.iblk1 (F := Ideal) V c 2 t : Vec Ideal S128x128 .f32) = V c main_arg8 := by
  obtain ⟨e70, e71, e00, e01, e10, e11, e20, e21, e30, e31, e40, e41, e50, e51, e60, e61, ek0, ek1⟩ := idx_facts1 t
  funext y
  show V c main_arg8 (((cfg1.win 2).blk t).view.emb y) = V c main_arg8 y
  refine congrArg (V c main_arg8) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array at every point. -/
theorem blk1_3 (c : Dev nD) (t : Fin cfg1.N) :
    (Gen.iblk1 (F := Ideal) V c 3 t : Vec Ideal S128x128 .f32) = V c main_arg9 := by
  obtain ⟨e70, e71, e00, e01, e10, e11, e20, e21, e30, e31, e40, e41, e50, e51, e60, e61, ek0, ek1⟩ := idx_facts1 t
  funext y
  show V c main_arg9 (((cfg1.win 3).blk t).view.emb y) = V c main_arg9 y
  refine congrArg (V c main_arg9) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array at every point. -/
theorem blk1_4 (c : Dev nD) (t : Fin cfg1.N) :
    (Gen.iblk1 (F := Ideal) V c 4 t : Vec Ideal S1x128 .f32) = V c main_v6 := by
  obtain ⟨e70, e71, e00, e01, e10, e11, e20, e21, e30, e31, e40, e41, e50, e51, e60, e61, ek0, ek1⟩ := idx_facts1 t
  funext y
  show V c main_v6 (((cfg1.win 4).blk t).view.emb y) = V c main_v6 y
  refine congrArg (V c main_v6) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array at every point. -/
theorem blk1_5 (c : Dev nD) (t : Fin cfg1.N) :
    (Gen.iblk1 (F := Ideal) V c 5 t : Vec Ideal S128x128 .f32) = V c main_arg11 := by
  obtain ⟨e70, e71, e00, e01, e10, e11, e20, e21, e30, e31, e40, e41, e50, e51, e60, e61, ek0, ek1⟩ := idx_facts1 t
  funext y
  show V c main_arg11 (((cfg1.win 5).blk t).view.emb y) = V c main_arg11 y
  refine congrArg (V c main_arg11) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block is its whole array at every point. -/
theorem blk1_6 (c : Dev nD) (t : Fin cfg1.N) :
    (Gen.iblk1 (F := Ideal) V c 6 t : Vec Ideal S1x128 .f32) = V c main_v7 := by
  obtain ⟨e70, e71, e00, e01, e10, e11, e20, e21, e30, e31, e40, e41, e50, e51, e60, e61, ek0, ek1⟩ := idx_facts1 t
  funext y
  show V c main_v7 (((cfg1.win 6).blk t).view.emb y) = V c main_v7 y
  refine congrArg (V c main_v7) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## One entry of a point's output block -/

/-- The body's arithmetic at entry y of the block, when row y₀ of the adjacency block and of the feature rows read are
    row r of the arrays and the other blocks are the whole arrays, is the layer at (r, y₁). -/
theorem point1 (adj : Vec Ideal S10000x10000 .f32) (h : Vec Ideal S10000x128 .f32) (ws wn : Vec Ideal S128x128 .f32)
    (b : Vec Ideal S1x128 .f32) (wr : Vec Ideal S128x128 .f32) (br : Vec Ideal S1x128 .f32)
    (x0 : Vec Ideal S400x10000 .f32) (x1 : Vec Ideal S10000x128 .f32) (x12 : Vec Ideal S400x128 .f32)
    (x2 x3 : Vec Ideal S128x128 .f32) (x4 : Vec Ideal S1x128 .f32) (x5 : Vec Ideal S128x128 .f32) (x6 : Vec Ideal S1x128 .f32)
    (y : S400x128.Idx) (r : Fin 10000)
    (h0 : ∀ k : Fin 10000, x0 (ix2 (y 0) k) = adj (ix2 r k)) (h1 : x1 = h)
    (h12 : ∀ k : Fin 128, x12 (ix2 (y 0) k) = h (ix2 r k))
    (h2 : x2 = ws) (h3 : x3 = wn) (h4 : x4 = b) (h5 : x5 = wr) (h6 : x6 = br) :
    Gen.k1_pay1 (F := Ideal) x0 x1 x12 x2 x3 x4 x5 x6 y
      = Sage.layerLin adj h ws wn (Sage.rowOf b) wr (Sage.rowOf br) (ix2 r (y 1)) := by
  subst h1 h2 h3 h4 h5 h6
  obtain ⟨p, q, rfl⟩ : ∃ (p : Fin 400) (q : Fin 128), y = ix2 p q := ⟨y 0, y 1, eq_ix2 y⟩
  exact (KPayload.pay1_apply x0 x1 x12 x2 x3 x4 x5 x6 p q).trans
    (Sage.layerLin_block adj x1 x0 x12 r p h0 h12 x2 x3 (Sage.rowOf x4) x5 (Sage.rowOf x6) q)

/-! ## What a point writes back, and the whole array -/

/-- What point t writes back is block t of the layer of the arrays the region finds. -/
theorem flushed_eq1 (c : Dev nD) (t : Fin cfg1.N) :
    (Gen.dat1 (F := Ideal) V c).flushed 7 t
      = ((cfg1.win 7).blk t).view.read (Elt Ideal) (Sage.layerLin (V c main_arg0) (V c main_v5) (V c main_arg8) (V c main_arg9) (Sage.rowOf (V c main_v6)) (V c main_arg11) (Sage.rowOf (V c main_v7))) := by
  show (cfg1.win 7).cut (grid1.coords t) ((Gen.dat1 (F := Ideal) V c).after 7 t) = _
  rw [Gen.after1_7]
  unfold Gen.outsAt1
  rw [piece1]
  obtain ⟨e70, e71, e00, e01, e10, e11, e20, e21, e30, e31, e40, e41, e50, e51, e60, e61, ek0, ek1⟩ := idx_facts1 t
  have hN : grid1.N = 25 := Gen.N_1
  have ht : t.val < grid1.N := t.isLt
  funext y
  have hy0 : (y 0).val < 400 := (y 0).isLt
  have hy1 : (y 1).val < 128 := (y 1).isLt
  have hr : 400 * t.val + (y 0).val < 10000 := by omega
  refine (point1 (V c main_arg0) (V c main_v5) (V c main_arg8) (V c main_arg9) (V c main_v6) (V c main_arg11) (V c main_v7)
    (Gen.iblk1 (F := Ideal) V c 0 t) (Gen.iblk1 (F := Ideal) V c 1 t)
    (View.ld (Gen.iblk1 (F := Ideal) V c 1 t) (Rect.unit (s := S10000x128) (k1_off1 (grid1.coords t)) S400x128.size (k1_off1_inb (grid1.coords t))))
    (Gen.iblk1 (F := Ideal) V c 2 t) (Gen.iblk1 (F := Ideal) V c 3 t) (Gen.iblk1 (F := Ideal) V c 4 t)
    (Gen.iblk1 (F := Ideal) V c 5 t) (Gen.iblk1 (F := Ideal) V c 6 t) y ⟨400 * t.val + (y 0).val, hr⟩
    (fun k => blk1_0_apply V c t (y 0) k ⟨400 * t.val + (y 0).val, hr⟩ rfl) (blk1_1 V c t) ?_
    (blk1_2 V c t) (blk1_3 V c t) (blk1_4 V c t) (blk1_5 V c t) (blk1_6 V c t)).trans ?_
  · intro k
    rw [blk1_1 V c t]
    exact Cert.LibBlockReads.ld_unit_ix2 (V c main_v5) (k1_off1 (grid1.coords t)) S400x128.size (k1_off1_inb (grid1.coords t))
      (ix2 (y 0) k) ⟨400 * t.val + (y 0).val, hr⟩ k (by show 400 * t.val + (y 0).val = k1_off1 (grid1.coords t) 0 + (y 0).val; omega)
      (by show k.val = k1_off1 (grid1.coords t) 1 + k.val; omega)
  · refine (congrArg (Sage.layerLin (V c main_arg0) (V c main_v5) (V c main_arg8) (V c main_arg9) (Sage.rowOf (V c main_v6)) (V c main_arg11) (Sage.rowOf (V c main_v7))) (funext fun a => Fin.ext ?_)).symm
    match a with
    | ⟨0, _⟩ => show win1_7.index t (0 : Fin 2) * 400 + 1 * (y 0).val = 400 * t.val + (y 0).val; omega
    | ⟨1, _⟩ => show win1_7.index t (1 : Fin 2) * 128 + 1 * (y 1).val = (y 1).val; omega

/-- An index of the output array is in point t's block iff each coordinate is in the block's range on its axis. -/
theorem mem_blk1 (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_v8).slice (win1_7.rect t)).set ↔ _
  rw [View.set_slice_whole, Rect.mem_set_unit]
  exact Iff.rfl

/-- Row r of the output array lies in the block of point r / 400. -/
theorem cover1 (i : S10000x128.Idx) :
    ∃ t : Fin cfg1.N, (cfg1.win 7).flush t = true ∧ i ∈ ((cfg1.win 7).blk t).view.set := by
  have hN : grid1.N = 25 := Gen.N_1
  have hi0 : (i 0).val < 10000 := (i 0).isLt
  have hi1 : (i 1).val < 128 := (i 1).isLt
  have htN : (i 0).val / 400 < grid1.N := by omega
  obtain ⟨e70, e71, e00, e01, e10, e11, e20, e21, e30, e31, e40, e41, e50, e51, e60, e61, ek0, ek1⟩ := idx_facts1 ⟨(i 0).val / 400, htN⟩
  refine ⟨⟨(i 0).val / 400, htN⟩, Gen.flush1_7 _, ?_⟩
  rw [mem_blk1]
  intro a
  match a with
  | ⟨0, _⟩ =>
    show win1_7.index ⟨(i 0).val / 400, htN⟩ (0 : Fin 2) * 400 ≤ (i 0).val ∧ (i 0).val < win1_7.index ⟨(i 0).val / 400, htN⟩ (0 : Fin 2) * 400 + 400
    rw [e70]; show (i 0).val / 400 * 400 ≤ (i 0).val ∧ (i 0).val < (i 0).val / 400 * 400 + 400; omega
  | ⟨1, _⟩ =>
    show win1_7.index ⟨(i 0).val / 400, htN⟩ (1 : Fin 2) * 128 ≤ (i 1).val ∧ (i 1).val < win1_7.index ⟨(i 0).val / 400, htN⟩ (1 : Fin 2) * 128 + 128
    rw [e71]; omega

/-- The output array after the region: the layer of the arrays the region finds. -/
theorem arrAt1 (c : Dev nD) :
    (Gen.dat1 (F := Ideal) V c).arrAt 7 cfg1.N
      = Sage.layerLin (V c main_arg0) (V c main_v5) (V c main_arg8) (V c main_arg9) (Sage.rowOf (V c main_v6)) (V c main_arg11) (Sage.rowOf (V c main_v7)) :=
  (Gen.dat1 (F := Ideal) V c).arrAt_eq_of_cover 7 (Sage.layerLin (V c main_arg0) (V c main_v5) (V c main_arg8) (V c main_arg9) (Sage.rowOf (V c main_v6)) (V c main_arg11) (Sage.rowOf (V c main_v7))) (fun t _ => flushed_eq1 V c t) (cover1)

end Cert.KernelIdeal.Region
end
-- ==== Proof.KHost.lean ====
/-
  The contents of the arrays each pallas_call finds, and of the two result arrays at the end, as functions of the
  argument arrays.  Before the first call the host adds the bias to every row of W (the input features) and lays two
  bias vectors out as one-row matrices; between the calls it lays out two more; no host operation and no call writes an
  argument.  The first call's output array is the second call's feature matrix, so the final result is the last layer
  applied to the first layer's result.
-/
import proofs.«131085_g64330020159590_cont_9to1_m_570_2_alg».proof.Proof.Gen.KernelIdeal.Frame
import proofs.«131085_g64330020159590_cont_9to1_m_570_2_alg».proof.Proof.Spec
import proofs.«131085_g64330020159590_cont_9to1_m_570_2_alg».proof.Proof.LibHostLayout
import proofs.«131085_g64330020159590_cont_9to1_m_570_2_alg».proof.Proof.RegionValue0
import proofs.«131085_g64330020159590_cont_9to1_m_570_2_alg».proof.Proof.RegionValue1
import Idealize.ShloMosaic.Lib.StableHlo.Run
import Idealize.ShloMosaic.Lib.ValueLayout

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A vector laid out as a one-row matrix. -/
def rowMat (x : FVec Ideal S128 .f32) : FVec Ideal S1x128 .f32 := shapeCast S1x128 x Facts₀.shapeCasts_S128_S1x128

/-- A vector laid out as one row, read back as a vector, is the vector. -/
theorem rowOf_rowMat (x : FVec Ideal S128 .f32) : Sage.rowOf (rowMat x) = x := by
  funext j
  exact (shapeCast_a_1a_apply x Facts₀.shapeCasts_S128_S1x128 0 (j 0)).trans (congrArg x (eq_ix1 j).symm)

/-- The host's input features: the bias laid along every row, added to W. -/
def hostFeat (W : FVec Ideal S10000x128 .f32) (b : FVec Ideal S128 .f32) : FVec Ideal S10000x128 .f32 :=
  addf W (broadcastInDim S10000x128 ![0, 1] Facts₀.bcast_S1x128_S10000x128_0_1 (broadcastInDim S1x128 ![1] Facts₀.bcast_S128_S1x128_1 b))

theorem hostFeat_eq (W : FVec Ideal S10000x128 .f32) (b : FVec Ideal S128 .f32) : hostFeat W b = Sage.feat W b := by
  unfold hostFeat
  rw [Cert.LibHostLayout.rowAll_eq, Cert.LibHostLayout.vecRow_eq]
  rfl

/-! ## What the first call finds -/

theorem V1_arg0 (c : Dev nD) : V1 m ρ c main_arg0 = (m ((c.tc : Thread nD τ).loc main_arg0)) := by
  dsimp only [V1, W1, hostOps0]; after_results
theorem V1_arg3 (c : Dev nD) : V1 m ρ c main_arg3 = (m ((c.tc : Thread nD τ).loc main_arg3)) := by
  dsimp only [V1, W1, hostOps0]; after_results
theorem V1_arg4 (c : Dev nD) : V1 m ρ c main_arg4 = (m ((c.tc : Thread nD τ).loc main_arg4)) := by
  dsimp only [V1, W1, hostOps0]; after_results
theorem V1_arg6 (c : Dev nD) : V1 m ρ c main_arg6 = (m ((c.tc : Thread nD τ).loc main_arg6)) := by
  dsimp only [V1, W1, hostOps0]; after_results

/-- The feature matrix the first call reads: W with the bias added to every row. -/
theorem V1_v2 (c : Dev nD) : (V1 m ρ c main_v2 : S10000x128.Idx → EReal) = Sage.feat (m ((c.tc : Thread nD τ).loc main_arg1)) (m ((c.tc : Thread nD τ).loc main_arg2)) := by
  have e : (V1 m ρ c main_v2 : S10000x128.Idx → EReal) = hostFeat (m ((c.tc : Thread nD τ).loc main_arg1)) (m ((c.tc : Thread nD τ).loc main_arg2)) := by
    dsimp only [V1, W1, hostOps0]; after_results; rfl
  rw [e]; exact hostFeat_eq _ _

theorem V1_v3 (c : Dev nD) : Sage.rowOf (V1 m ρ c main_v3 : S1x128.Idx → EReal) = (m ((c.tc : Thread nD τ).loc main_arg5)) := by
  have e : (V1 m ρ c main_v3 : S1x128.Idx → EReal) = rowMat (m ((c.tc : Thread nD τ).loc main_arg5)) := by
    dsimp only [V1, W1, hostOps0]; after_results; rfl
  rw [e]; exact rowOf_rowMat _
theorem V1_v4 (c : Dev nD) : Sage.rowOf (V1 m ρ c main_v4 : S1x128.Idx → EReal) = (m ((c.tc : Thread nD τ).loc main_arg7)) := by
  have e : (V1 m ρ c main_v4 : S1x128.Idx → EReal) = rowMat (m ((c.tc : Thread nD τ).loc main_arg7)) := by
    dsimp only [V1, W1, hostOps0]; after_results; rfl
  rw [e]; exact rowOf_rowMat _

/-! ## What the first call leaves -/

/-- The first layer's result, as the specification's function of the arguments. -/
def midSpec (c : Dev nD) : Sage.Mat 10000 128 :=
  Sage.layerAct (m ((c.tc : Thread nD τ).loc main_arg0)) (Sage.feat (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem W2_v5 (c : Dev nD) : (W2 m ρ c (Proc.devRef .tc main_v5) : S10000x128.Idx → EReal) = midSpec m c := by
  have h := (W2_arr m ρ c 7).trans (Region.arrAt0 (V1 m ρ) c)
  rw [V1_arg0, V1_v2, V1_arg3, V1_arg4, V1_v3, V1_arg6, V1_v4] at h
  exact h

/-! ## What the second call finds -/

theorem V3_arg0 (c : Dev nD) : V3 m ρ c main_arg0 = (m ((c.tc : Thread nD τ).loc main_arg0)) := by
  have e : V3 m ρ c main_arg0 = W2 m ρ c (Proc.devRef .tc main_arg0) := by
    dsimp only [V3, W3, hostOps1]; after_results
  rw [e]
  exact ((W2_arr m ρ c 0).trans (((dat0 (V1 m ρ) c).arrAt_in 0 rfl _).trans (A_eq0 (V1 m ρ) c 0))).trans (V1_arg0 m ρ c)

theorem V3_v5 (c : Dev nD) : (V3 m ρ c main_v5 : S10000x128.Idx → EReal) = midSpec m c := by
  have e : V3 m ρ c main_v5 = W2 m ρ c (Proc.devRef .tc main_v5) := by
    dsimp only [V3, W3, hostOps1]; after_results
  rw [e]; exact W2_v5 m ρ c

/-- An argument no window of the first call stages is, when the second call is entered, as launched. -/
theorem W2_arg8 (c : Dev nD) : W2 m ρ c (Proc.devRef .tc main_arg8) = (m ((c.tc : Thread nD τ).loc main_arg8)) := by
  rw [W2_of_ne m ρ c main_arg8 (by decide)]; dsimp only [W1, hostOps0]; after_results
theorem W2_arg9 (c : Dev nD) : W2 m ρ c (Proc.devRef .tc main_arg9) = (m ((c.tc : Thread nD τ).loc main_arg9)) := by
  rw [W2_of_ne m ρ c main_arg9 (by decide)]; dsimp only [W1, hostOps0]; after_results
theorem W2_arg10 (c : Dev nD) : W2 m ρ c (Proc.devRef .tc main_arg10) = (m ((c.tc : Thread nD τ).loc main_arg10)) := by
  rw [W2_of_ne m ρ c main_arg10 (by decide)]; dsimp only [W1, hostOps0]; after_results
theorem W2_arg11 (c : Dev nD) : W2 m ρ c (Proc.devRef .tc main_arg11) = (m ((c.tc : Thread nD τ).loc main_arg11)) := by
  rw [W2_of_ne m ρ c main_arg11 (by decide)]; dsimp only [W1, hostOps0]; after_results
theorem W2_arg12 (c : Dev nD) : W2 m ρ c (Proc.devRef .tc main_arg12) = (m ((c.tc : Thread nD τ).loc main_arg12)) := by
  rw [W2_of_ne m ρ c main_arg12 (by decide)]; dsimp only [W1, hostOps0]; after_results

theorem V3_arg8 (c : Dev nD) : V3 m ρ c main_arg8 = (m ((c.tc : Thread nD τ).loc main_arg8)) := by
  have e : V3 m ρ c main_arg8 = W2 m ρ c (Proc.devRef .tc main_arg8) := by
    dsimp only [V3, W3, hostOps1]; after_results
  rw [e]; exact W2_arg8 m ρ c
theorem V3_arg9 (c : Dev nD) : V3 m ρ c main_arg9 = (m ((c.tc : Thread nD τ).loc main_arg9)) := by
  have e : V3 m ρ c main_arg9 = W2 m ρ c (Proc.devRef .tc main_arg9) := by
    dsimp only [V3, W3, hostOps1]; after_results
  rw [e]; exact W2_arg9 m ρ c
theorem V3_arg11 (c : Dev nD) : V3 m ρ c main_arg11 = (m ((c.tc : Thread nD τ).loc main_arg11)) := by
  have e : V3 m ρ c main_arg11 = W2 m ρ c (Proc.devRef .tc main_arg11) := by
    dsimp only [V3, W3, hostOps1]; after_results
  rw [e]; exact W2_arg11 m ρ c

theorem V3_v6 (c : Dev nD) : Sage.rowOf (V3 m ρ c main_v6 : S1x128.Idx → EReal) = (m ((c.tc : Thread nD τ).loc main_arg10)) := by
  have e : (V3 m ρ c main_v6 : S1x128.Idx → EReal) = rowMat (W2 m ρ c (Proc.devRef .tc main_arg10)) := by
    dsimp only [V3, W3, hostOps1]; after_results; rfl
  rw [e, W2_arg10]; exact rowOf_rowMat _
theorem V3_v7 (c : Dev nD) : Sage.rowOf (V3 m ρ c main_v7 : S1x128.Idx → EReal) = (m ((c.tc : Thread nD τ).loc main_arg12)) := by
  have e : (V3 m ρ c main_v7 : S1x128.Idx → EReal) = rowMat (W2 m ρ c (Proc.devRef .tc main_arg12)) := by
    dsimp only [V3, W3, hostOps1]; after_results; rfl
  rw [e, W2_arg12]; exact rowOf_rowMat _

/-! ## The two results at the end -/

/-- The first call's output array is not written again: at the end it holds the first layer's result. -/
theorem W4_v5 (c : Dev nD) : (W4 m ρ c (Proc.devRef .tc main_v5) : S10000x128.Idx → EReal) = midSpec m c :=
  ((W4_arr m ρ c 1).trans (((dat1 (V3 m ρ) c).arrAt_in 1 rfl _).trans (A_eq1 (V3 m ρ) c 1))).trans (V3_v5 m ρ c)

/-- The second call's output array holds the last layer applied to the first layer's result. -/
theorem W4_v8 (c : Dev nD) : (W4 m ρ c (Proc.devRef .tc main_v8) : S10000x128.Idx → EReal)
    = Sage.layerLin (m ((c.tc : Thread nD τ).loc main_arg0)) (midSpec m c) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h := (W4_arr m ρ c 7).trans (Region.arrAt1 (V3 m ρ) c)
  rw [V3_arg0, V3_v5, V3_arg8, V3_arg9, V3_v6, V3_arg11, V3_v7] at h
  exact h

end Cert.KernelIdeal.KHost

end
-- ==== Proof.RefTerms.lean ====
/-
  The reference's host operations composed into pure functions of its argument arrays: the identity matrix as an
  iota comparison, the positional features, one aggregation layer, the leaky rectifier as a comparison and a select,
  the residual projection, and the two results.
-/
import proofs.«131085_g64330020159590_cont_9to1_m_570_2_alg».proof.ReferenceIdeal
import Idealize.ShloMosaic.PureOps.Ideal

noncomputable section

namespace Cert.ReferenceIdeal.RefTerms

open Idealize.ShloMosaic Cert.ReferenceIdeal
open Cert.ReferenceIdeal.Facts₀

variable [Cert.ReferenceIdeal.Facts]

/-- The identity matrix: 1.0 where the row number equals the column number. -/
def eye : FVec Ideal S10000x10000 .f32 :=
  uitofp .f32 (cmpi .eq (addi (iotaInDim S10000x10000 32 0)
    (broadcastInDim S10000x10000 ![] bcast_S_S10000x10000 (constantI S_ 32 0#32))) (iotaInDim S10000x10000 32 1))

/-- A length-128 vector laid along every row. -/
def rows (b : FVec Ideal S128 .f32) : FVec Ideal S10000x128 .f32 :=
  broadcastInDim S10000x128 ![0, 1] bcast_S1x128_S10000x128_0_1 (broadcastInDim S1x128 ![1] bcast_S128_S1x128_1 b)

/-- The positional features: identity · W plus the bias. -/
def pe (W : FVec Ideal S10000x128 .f32) (b : FVec Ideal S128 .f32) : FVec Ideal S10000x128 .f32 :=
  addf (Host.dotGeneral dot_S10000x10000_S10000x128_S10000x128_1_0_0_1_n_n none eye W) (rows b)

/-- The degrees floored at the literal, as a column. -/
def clipped (adj : FVec Ideal S10000x10000 .f32) : FVec Ideal S10000x1 .f32 :=
  maximumf (broadcastInDim S10000x1 ![] bcast_S_S10000x1 (id (constant (F := Ideal) S_ .f32 0x358637BD#32)))
    (broadcastInDim S10000x1 ![0] bcast_S10000_S10000x1_0
      (Host.reduceAdd adj (constant (F := Ideal) S_ .f32 0x00000000#32) reducesTo_S10000x10000_S10000_d1 h_S_))

/-- One aggregation layer. -/
def sage (adj : FVec Ideal S10000x10000 .f32) (h : FVec Ideal S10000x128 .f32) (ws wn : FVec Ideal S128x128 .f32)
    (b : FVec Ideal S128 .f32) : FVec Ideal S10000x128 .f32 :=
  addf (addf (Host.dotGeneral dot_S10000x128_S128x128_S10000x128_1_0_0_1_n_n none h ws)
      (Host.dotGeneral dot_S10000x128_S128x128_S10000x128_1_0_0_1_n_n none
        (Host.divf (Host.dotGeneral dot_S10000x10000_S10000x128_S10000x128_1_0_0_1_n_n none adj h)
          (broadcastInDim S10000x128 ![0, 1] bcast_S10000x1_S10000x128_0_1 (clipped adj))) wn))
    (rows b)

/-- The leaky rectifier. -/
def lrelu (x : FVec Ideal S10000x128 .f32) : FVec Ideal S10000x128 .f32 :=
  select (cmpf .oge x (broadcastInDim S10000x128 ![] bcast_S_S10000x128 (constant (F := Ideal) S_ .f32 0x00000000#32))) x
    (mulf (broadcastInDim S10000x128 ![] bcast_S_S10000x128 (id (constant (F := Ideal) S_ .f32 0x3C23D70A#32))) x)

/-- The residual projection with its bias. -/
def resid (h : FVec Ideal S10000x128 .f32) (wr : FVec Ideal S128x128 .f32) (br : FVec Ideal S128 .f32) :
    FVec Ideal S10000x128 .f32 :=
  addf (Host.dotGeneral dot_S10000x128_S128x128_S10000x128_1_0_0_1_n_n none h wr) (rows br)

/-- The first layer's result (the reference's second result). -/
def mid (adj : FVec Ideal S10000x10000 .f32) (W : FVec Ideal S10000x128 .f32) (bl : FVec Ideal S128 .f32)
    (ws0 wn0 : FVec Ideal S128x128 .f32) (b0 : FVec Ideal S128 .f32) (wr0 : FVec Ideal S128x128 .f32) (br0 : FVec Ideal S128 .f32) :
    FVec Ideal S10000x128 .f32 :=
  addf (lrelu (sage adj (pe W bl) ws0 wn0 b0)) (resid (pe W bl) wr0 br0)

/-- The last layer's result from the first layer's (the reference's first and third results). -/
def last (adj : FVec Ideal S10000x10000 .f32) (h : FVec Ideal S10000x128 .f32)
    (ws1 wn1 : FVec Ideal S128x128 .f32) (b1 : FVec Ideal S128 .f32) (wr1 : FVec Ideal S128x128 .f32) (br1 : FVec Ideal S128 .f32) :
    FVec Ideal S10000x128 .f32 :=
  addf (sage adj h ws1 wn1 b1) (resid h wr1 br1)

end Cert.ReferenceIdeal.RefTerms

end
-- ==== Proof.RefRun.lean ====
/-
  The reference program's run. Its @main, with the three outlined helpers (the floor of the degrees, the leaky
  rectifier and the select it calls) substituted at their call sites, is one straight line of sixty-one host
  operations; every weakly fair execution of it terminates with each buffer at the fold of those operations over the
  launch contents. Read at the result buffers, the fold is the composition of pure functions of the thirteen
  argument arrays that RefTerms names; read at an argument buffer it is the launch contents, no operation writing one.
-/
import Idealize.ShloMosaic.Lib.StableHlo.Run
import proofs.«131085_g64330020159590_cont_9to1_m_570_2_alg».proof.Proof.Gen.ReferenceIdeal
import proofs.«131085_g64330020159590_cont_9to1_m_570_2_alg».proof.Proof.RefTerms

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's sixty-one operations in order, the calls unfolded: the floor of the degrees is three operations (the
    literal at its own type, its broadcast to a column, the maximum) into the call's buffers, twice; the leaky
    rectifier is seven (the zero and its broadcast, the comparison, the slope at its own type and its broadcast, the
    product, the select) into its call's buffers. -/
abbrev ops : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_v5 main_arg1 main_v6 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v7 (broadcastInDim S1x128 ![1] bcast_S128_S1x128_1 : (⟨S128, .f32⟩ : BufTy).Contents (Elt F) → (⟨S1x128, .f32⟩ : BufTy).Contents (Elt F)),
    unary main_v7 main_v8 (broadcastInDim S10000x128 ![0, 1] bcast_S1x128_S10000x128_0_1 : (⟨S1x128, .f32⟩ : BufTy).Contents (Elt F) → (⟨S10000x128, .f32⟩ : BufTy).Contents (Elt F)),
    binary main_v6 main_v8 main_v9 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    binary main_arg0 main_cst main_v10 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v10 main_v11 (broadcastInDim S10000x1 ![0] bcast_S10000_S10000x1_0 : (⟨S10000, .f32⟩ : BufTy).Contents (Elt F) → (⟨S10000x1, .f32⟩ : BufTy).Contents (Elt F)),
    binary main_arg0 main_v9 main_v12 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst_0 (constant S_ .f32 0x358637BD#32),
    TRef.unary (TRef.of main_cst_0 : TRef sig ⟨S_, .f32⟩) main_call0.v0 id,
    TRef.unary main_call0.v0 main_call0.v1 (broadcastInDim S10000x1 ![] bcast_S_S10000x1),
    TRef.binary main_call0.v1 (TRef.of main_v11 : TRef sig ⟨S10000x1, .f32⟩) main_call0.v2 maximumf,
    unary main_v13 main_v14 (broadcastInDim S10000x128 ![0, 1] bcast_S10000x1_S10000x128_0_1 : (⟨S10000x1, .f32⟩ : BufTy).Contents (Elt F) → (⟨S10000x128, .f32⟩ : BufTy).Contents (Elt F)),
    binary main_v12 main_v14 main_v15 (Host.divf : (⟨S10000x128, .f32⟩ : BufTy).Contents (Elt F) → (⟨S10000x128, .f32⟩ : BufTy).Contents (Elt F) → (⟨S10000x128, .f32⟩ : BufTy).Contents (Elt F)),
    binary main_v9 main_arg3 main_v16 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v15 main_arg4 main_v17 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v16 main_v17 main_v18 (addf : (⟨S10000x128, .f32⟩ : BufTy).Contents (Elt F) → (⟨S10000x128, .f32⟩ : BufTy).Contents (Elt F) → (⟨S10000x128, .f32⟩ : BufTy).Contents (Elt F)),
    unary main_arg5 main_v19 (broadcastInDim S1x128 ![1] bcast_S128_S1x128_1 : (⟨S128, .f32⟩ : BufTy).Contents (Elt F) → (⟨S1x128, .f32⟩ : BufTy).Contents (Elt F)),
    unary main_v19 main_v20 (broadcastInDim S10000x128 ![0, 1] bcast_S1x128_S10000x128_0_1 : (⟨S1x128, .f32⟩ : BufTy).Contents (Elt F) → (⟨S10000x128, .f32⟩ : BufTy).Contents (Elt F)),
    binary main_v18 main_v20 main_v21 (addf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3C23D70A#32),
    TRef.nullary main_call1.cst (constant S_ .f32 0x00000000#32),
    TRef.unary main_call1.cst main_call1.v0 (broadcastInDim S10000x128 ![] bcast_S_S10000x128),
    TRef.binary (TRef.of main_v21 : TRef sig ⟨S10000x128, .f32⟩) main_call1.v0 main_call1.v1 (cmpf .oge),
    TRef.unary (TRef.of main_cst_1 : TRef sig ⟨S_, .f32⟩) main_call1.v2 id,
    TRef.unary main_call1.v2 main_call1.v3 (broadcastInDim S10000x128 ![] bcast_S_S10000x128),
    TRef.binary main_call1.v3 (TRef.of main_v21 : TRef sig ⟨S10000x128, .f32⟩) main_call1.v4 mulf,
    TRef.ternary main_call1.v1 (TRef.of main_v21 : TRef sig ⟨S10000x128, .f32⟩) main_call1.v4 main_call1.call0.v0 select,
    binary main_v9 main_arg6 main_v23 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg7 main_v24 (broadcastInDim S1x128 ![1] bcast_S128_S1x128_1 : (⟨S128, .f32⟩ : BufTy).Contents (Elt F) → (⟨S1x128, .f32⟩ : BufTy).Contents (Elt F)),
    unary main_v24 main_v25 (broadcastInDim S10000x128 ![0, 1] bcast_S1x128_S10000x128_0_1 : (⟨S1x128, .f32⟩ : BufTy).Contents (Elt F) → (⟨S10000x128, .f32⟩ : BufTy).Contents (Elt F)),
    binary main_v23 main_v25 main_v26 (addf : (⟨S10000x128, .f32⟩ : BufTy).Contents (Elt F) → (⟨S10000x128, .f32⟩ : BufTy).Contents (Elt F) → (⟨S10000x128, .f32⟩ : BufTy).Contents (Elt F)),
    binary main_v22 main_v26 main_v27 (addf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    binary main_arg0 main_cst_2 main_v28 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v28 main_v29 (broadcastInDim S10000x1 ![0] bcast_S10000_S10000x1_0 : (⟨S10000, .f32⟩ : BufTy).Contents (Elt F) → (⟨S10000x1, .f32⟩ : BufTy).Contents (Elt F)),
    binary main_arg0 main_v27 main_v30 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst_3 (constant S_ .f32 0x358637BD#32),
    TRef.unary (TRef.of main_cst_3 : TRef sig ⟨S_, .f32⟩) main_call2.v0 id,
    TRef.unary main_call2.v0 main_call2.v1 (broadcastInDim S10000x1 ![] bcast_S_S10000x1),
    TRef.binary main_call2.v1 (TRef.of main_v29 : TRef sig ⟨S10000x1, .f32⟩) main_call2.v2 maximumf,
    unary main_v31 main_v32 (broadcastInDim S10000x128 ![0, 1] bcast_S10000x1_S10000x128_0_1 : (⟨S10000x1, .f32⟩ : BufTy).Contents (Elt F) → (⟨S10000x128, .f32⟩ : BufTy).Contents (Elt F)),
    binary main_v30 main_v32 main_v33 (Host.divf : (⟨S10000x128, .f32⟩ : BufTy).Contents (Elt F) → (⟨S10000x128, .f32⟩ : BufTy).Contents (Elt F) → (⟨S10000x128, .f32⟩ : BufTy).Contents (Elt F)),
    binary main_v27 main_arg8 main_v34 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v33 main_arg9 main_v35 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v34 main_v35 main_v36 (addf : (⟨S10000x128, .f32⟩ : BufTy).Contents (Elt F) → (⟨S10000x128, .f32⟩ : BufTy).Contents (Elt F) → (⟨S10000x128, .f32⟩ : BufTy).Contents (Elt F)),
    unary main_arg10 main_v37 (broadcastInDim S1x128 ![1] bcast_S128_S1x128_1 : (⟨S128, .f32⟩ : BufTy).Contents (Elt F) → (⟨S1x128, .f32⟩ : BufTy).Contents (Elt F)),
    unary main_v37 main_v38 (broadcastInDim S10000x128 ![0, 1] bcast_S1x128_S10000x128_0_1 : (⟨S1x128, .f32⟩ : BufTy).Contents (Elt F) → (⟨S10000x128, .f32⟩ : BufTy).Contents (Elt F)),
    binary main_v36 main_v38 main_v39 (addf : (⟨S10000x128, .f32⟩ : BufTy).Contents (Elt F) → (⟨S10000x128, .f32⟩ : BufTy).Contents (Elt F) → (⟨S10000x128, .f32⟩ : BufTy).Contents (Elt F)),
    binary main_v27 main_arg11 main_v40 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg12 main_v41 (broadcastInDim S1x128 ![1] bcast_S128_S1x128_1 : (⟨S128, .f32⟩ : BufTy).Contents (Elt F) → (⟨S1x128, .f32⟩ : BufTy).Contents (Elt F)),
    unary main_v41 main_v42 (broadcastInDim S10000x128 ![0, 1] bcast_S1x128_S10000x128_0_1 : (⟨S1x128, .f32⟩ : BufTy).Contents (Elt F) → (⟨S10000x128, .f32⟩ : BufTy).Contents (Elt F)),
    binary main_v40 main_v42 main_v43 (addf : (⟨S10000x128, .f32⟩ : BufTy).Contents (Elt F) → (⟨S10000x128, .f32⟩ : BufTy).Contents (Elt F) → (⟨S10000x128, .f32⟩ : BufTy).Contents (Elt F)),
    binary main_v39 main_v43 main_v44 (addf : (⟨S10000x128, .f32⟩ : BufTy).Contents (Elt F) → (⟨S10000x128, .f32⟩ : BufTy).Contents (Elt F) → (⟨S10000x128, .f32⟩ : BufTy).Contents (Elt F)) ]

-- sixty-one binds re-associated: the rewrite under the chain recurses once per statement
set_option maxRecDepth 2048 in
/-- @main is that straight line: the helpers' definitions unfolded at their calls, both sides are one chain of
    host steps once sequencing is re-associated. -/
theorem main_eq (c : Dev nD) : main (F := F) c = seq ops := by
  simp only [main, fn_clip.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., binary_bufs_sub .., unary_bufs_sub .., unary_bufs_sub .., binary_bufs_sub .., nullary_bufs_sub .., binary_bufs_sub .., unary_bufs_sub .., binary_bufs_sub .., nullary_bufs_sub .., unary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., binary_bufs_sub .., nullary_bufs_sub .., binary_bufs_sub .., unary_bufs_sub .., binary_bufs_sub .., nullary_bufs_sub .., unary_bufs_sub .., unary_bufs_sub .., binary_bufs_sub .., unary_bufs_sub .., binary_bufs_sub .., binary_bufs_sub .., binary_bufs_sub .., binary_bufs_sub .., unary_bufs_sub .., unary_bufs_sub .., binary_bufs_sub .., binary_bufs_sub .., unary_bufs_sub .., unary_bufs_sub .., binary_bufs_sub .., binary_bufs_sub ..⟩

/-! ## The fold read at the result buffers and at the argument buffers, over any contents -/

set_option maxHeartbeats 400000 in
/-- The second result's buffer holds the first layer's term of the first eight arguments: each operation's result
    read at its own buffer is its function's value and elsewhere what was there; the helpers' typed references move
    contents along the identity. -/
theorem v27_eq (V : Valuation τ sig (Elt Ideal)) :
    after ops V (main_v27 : DevRef τ sig) = RefTerms.mid (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxHeartbeats 800000 in
/-- The first and third results' buffer holds the last layer's term of the adjacency, the first layer's term and the
    last five arguments. -/
theorem v44_eq (V : Valuation τ sig (Elt Ideal)) :
    after ops V (main_v44 : DevRef τ sig) = RefTerms.last (V (main_arg0 : DevRef τ sig)) (RefTerms.mid (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_arg8 : DevRef τ sig)) (V (main_arg9 : DevRef τ sig)) (V (main_arg10 : DevRef τ sig)) (V (main_arg11 : DevRef τ sig)) (V (main_arg12 : DevRef τ sig)) := by
  after_results_simp
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

theorem arg4_eq (V : Valuation τ sig (Elt Ideal)) :
    after ops V (main_arg4 : DevRef τ sig) = V (main_arg4 : DevRef τ sig) := by
  after_results_simp

theorem arg5_eq (V : Valuation τ sig (Elt Ideal)) :
    after ops V (main_arg5 : DevRef τ sig) = V (main_arg5 : DevRef τ sig) := by
  after_results_simp

theorem arg6_eq (V : Valuation τ sig (Elt Ideal)) :
    after ops V (main_arg6 : DevRef τ sig) = V (main_arg6 : DevRef τ sig) := by
  after_results_simp

theorem arg7_eq (V : Valuation τ sig (Elt Ideal)) :
    after ops V (main_arg7 : DevRef τ sig) = V (main_arg7 : DevRef τ sig) := by
  after_results_simp

theorem arg8_eq (V : Valuation τ sig (Elt Ideal)) :
    after ops V (main_arg8 : DevRef τ sig) = V (main_arg8 : DevRef τ sig) := by
  after_results_simp

theorem arg9_eq (V : Valuation τ sig (Elt Ideal)) :
    after ops V (main_arg9 : DevRef τ sig) = V (main_arg9 : DevRef τ sig) := by
  after_results_simp

theorem arg10_eq (V : Valuation τ sig (Elt Ideal)) :
    after ops V (main_arg10 : DevRef τ sig) = V (main_arg10 : DevRef τ sig) := by
  after_results_simp

theorem arg11_eq (V : Valuation τ sig (Elt Ideal)) :
    after ops V (main_arg11 : DevRef τ sig) = V (main_arg11 : DevRef τ sig) := by
  after_results_simp

theorem arg12_eq (V : Valuation τ sig (Elt Ideal)) :
    after ops V (main_arg12 : DevRef τ sig) = V (main_arg12 : DevRef τ sig) := by
  after_results_simp

/-! ## The run -/

/-- At the ideal instance, from any memory with zero counters: every weakly fair execution of @main terminates with
    the first and third results at the last layer's term, the second at the first layer's, and the thirteen arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = RefTerms.last (m ((c.tc : Thread nD τ).loc main_arg0)) (RefTerms.mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v27) = RefTerms.mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v44) = RefTerms.last (m ((c.tc : Thread nD τ).loc main_arg0)) (RefTerms.mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v44).trans (v44_eq _),
      (h c main_v27).trans (v27_eq _),
      (h c main_v44).trans (v44_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.RefRun

end
-- ==== Proof.RefValue.lean ====
/-
  The reference's composed functions are the specification, index by index, on the extended reals.

  The identity matrix's entry at (i, k) is the one-bit word of the comparison of the two coordinates read as an
  unsigned integer: 1 when i = k and 0 otherwise, so its product with W is W (0 · x = 0 and 1 · x = x for every
  extended real).  A vector laid along every row reads its entry at the column; the host's sum of a row from the
  zero word is the row's sum; the floored degree column broadcast across the columns divides the aggregated
  features row by row; the comparison and select are the leaky rectifier; and adding the residual as one summand
  is adding its two parts in turn.
-/
import proofs.«131085_g64330020159590_cont_9to1_m_570_2_alg».proof.Proof.RefTerms
import proofs.«131085_g64330020159590_cont_9to1_m_570_2_alg».proof.Proof.Spec
import proofs.«131085_g64330020159590_cont_9to1_m_570_2_alg».proof.Proof.LibMatmul
import proofs.«131085_g64330020159590_cont_9to1_m_570_2_alg».proof.Proof.LibHostLayout
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Cert.ReferenceIdeal.RefTerms Cert.Sage Cert.LibMatmul Cert.LibHostLayout Idealize.ShloMosaic Idealize.ShloMosaic.ValueIdx
open Cert.ReferenceIdeal.Facts₀

variable [Cert.ReferenceIdeal.Facts]

/-- The identity matrix's entry: the one-bit word of the comparison of the two coordinates, read unsigned. -/
theorem eye_apply (i k : Fin 10000) :
    eye (ix2 i k) = (((IntOp.cmpi .eq (BitVec.ofNat 32 i.val + 0#32) (BitVec.ofNat 32 k.val)).toNat : ℝ) : EReal) := rfl

/-- Two coordinates below 10000 have equal 32-bit words exactly when they are equal. -/
theorem word_eq_iff (i k : Fin 10000) : (BitVec.ofNat 32 i.val + 0#32 = BitVec.ofNat 32 k.val) ↔ i = k := by
  rw [BitVec.add_zero]
  constructor
  · intro h
    have h' := congrArg BitVec.toNat h
    rw [BitVec.toNat_ofNat, BitVec.toNat_ofNat] at h'
    have hi : i.val < 10000 := i.isLt
    have hk : k.val < 10000 := k.isLt
    apply Fin.ext
    omega
  · intro h; rw [h]

theorem eye_diag (i : Fin 10000) : eye (ix2 i i) = 1 := by
  rw [eye_apply]
  have h : (BitVec.ofNat 32 i.val + 0#32 == BitVec.ofNat 32 i.val) = true := by
    rw [beq_iff_eq]; exact (word_eq_iff i i).mpr rfl
  show (((BitVec.ofBool (BitVec.ofNat 32 i.val + 0#32 == BitVec.ofNat 32 i.val)).toNat : ℝ) : EReal) = 1
  rw [h]
  simp

theorem eye_off (i k : Fin 10000) (hik : i ≠ k) : eye (ix2 i k) = 0 := by
  rw [eye_apply]
  have h : (BitVec.ofNat 32 i.val + 0#32 == BitVec.ofNat 32 k.val) = false := by
    rw [beq_eq_false_iff_ne]; exact fun h => hik ((word_eq_iff i k).mp h)
  show (((BitVec.ofBool (BitVec.ofNat 32 i.val + 0#32 == BitVec.ofNat 32 k.val)).toNat : ℝ) : EReal) = 0
  rw [h]
  simp

/-- A length-128 vector laid along every row, read at an index. -/
theorem rows_apply (b : FVec Ideal S128 .f32) (i : S10000x128.Idx) : rows b i = b (ix1 (i 1)) := by
  unfold rows
  refine (congrFun (rowAll_eq _ _) i).trans ?_
  exact congrFun (vecRow_eq b _) (ix2 (0 : Fin 1) (i 1))

/-- The host's product of a 10000 × 10000 and a 10000 × 128 array is the matrix product. -/
theorem dotBig_eq (x : FVec Ideal S10000x10000 .f32) (w : FVec Ideal S10000x128 .f32) :
    Host.dotGeneral dot_S10000x10000_S10000x128_S10000x128_1_0_0_1_n_n none x w = MM x w :=
  dotGeneral_eq dot_S10000x10000_S10000x128_S10000x128_1_0_0_1_n_n rfl rfl rfl rfl rfl rfl none .single x w

/-- The host's product of a 10000 × 128 and a 128 × 128 array is the matrix product. -/
theorem dotSmall_eq (x : FVec Ideal S10000x128 .f32) (w : FVec Ideal S128x128 .f32) :
    Host.dotGeneral dot_S10000x128_S128x128_S10000x128_1_0_0_1_n_n none x w = MM x w :=
  dotGeneral_eq dot_S10000x128_S128x128_S10000x128_1_0_0_1_n_n rfl rfl rfl rfl rfl rfl none .single x w

/-- The identity matrix times W is W. -/
theorem eye_MM (W : FVec Ideal S10000x128 .f32) (i : S10000x128.Idx) : MM eye W i = W i := by
  obtain ⟨p, q, rfl⟩ : ∃ (p : Fin 10000) (q : Fin 128), i = ix2 p q := ⟨i 0, i 1, eq_ix2 i⟩
  rw [MM_apply]
  rw [Finset.sum_eq_single p]
  · rw [eye_diag, one_mul]
  · intro k _ hk
    rw [eye_off p k (Ne.symm hk), zero_mul]
  · intro h; exact absurd (Finset.mem_univ p) h

theorem pe_eq (W : FVec Ideal S10000x128 .f32) (b : FVec Ideal S128 .f32) : pe W b = Sage.feat W b := by
  funext i
  unfold pe
  rw [dotBig_eq, addf_apply, eye_MM, rows_apply]
  rfl

/-- The shape fact of a row sum of a 10000 × 10000 array. -/
theorem reduces_rows : (⟨2, ![10000, 10000]⟩ : Shape).Reduces [1] ⟨1, ![10000]⟩ := by decide

/-- The index a row sum reads: row r, column k. -/
theorem lift_rows (j : (⟨1, ![10000]⟩ : Shape).Idx) (k : Fin 10000) : reduces_rows.lift j k = ix2 (j 0) k := by
  funext c
  apply Fin.ext
  show reduces_rows.liftVal j k.val c = (ix2 (j 0) k c).val
  match c with
  | ⟨0, _⟩ => simp [Shape.Reduces.liftVal]
  | ⟨1, _⟩ => simp [Shape.Reduces.liftVal]

/-- The host's sum of every row from the zero word is the row's sum. -/
theorem rowsum_apply (adj : FVec Ideal S10000x10000 .f32) (j : S10000.Idx) :
    Host.reduceAdd adj (constant (F := Ideal) S_ .f32 0x00000000#32) reducesTo_S10000x10000_S10000_d1 h_S_ j
      = ∑ k : Fin 10000, adj (ix2 (j 0) k) := by
  rw [hostReduceAdd_apply, constant_apply, Ideal.ofBits_zero_f32]
  refine (Ideal.hostReduceAdd_single reducesTo_S10000x10000_S10000_d1 reduces_rows adj 0 j).trans ?_
  rw [zero_add]
  exact Finset.sum_congr rfl fun k _ => congrArg adj (lift_rows j k)

/-- The clipped degree column at row r is the floored degree. -/
theorem clipped_apply (adj : FVec Ideal S10000x10000 .f32) (i : S10000x1.Idx) : clipped adj i = Sage.degc adj (i 0) := by
  unfold clipped
  rw [maximumf_apply]
  unfold Sage.degc
  refine congrArg₂ max ?_ ?_
  · exact congrFun (splat_eq _ _) i
  · refine (congrFun (vecCol_eq _ _) i).trans ?_
    exact rowsum_apply adj (ix1 (i 0))

/-- The aggregated features divided row by row by the floored degree are the neighbours' mean. -/
theorem neigh_eq (adj : FVec Ideal S10000x10000 .f32) (h : FVec Ideal S10000x128 .f32) :
    Host.divf (Host.dotGeneral dot_S10000x10000_S10000x128_S10000x128_1_0_0_1_n_n none adj h)
      (broadcastInDim S10000x128 ![0, 1] bcast_S10000x1_S10000x128_0_1 (clipped adj)) = Sage.neigh adj h := by
  funext j
  rw [dotBig_eq, hostDivf_apply]
  unfold Sage.neigh
  refine congrArg (Ideal.div (MM adj h j)) ?_
  refine (congrFun (colAll_eq _ _) j).trans ?_
  exact clipped_apply adj (ix2 (j 0) (0 : Fin 1))

theorem sage_eq (adj : FVec Ideal S10000x10000 .f32) (h : FVec Ideal S10000x128 .f32) (ws wn : FVec Ideal S128x128 .f32)
    (b : FVec Ideal S128 .f32) : sage adj h ws wn b = Sage.conv adj h ws wn b := by
  funext i
  unfold sage
  rw [neigh_eq, dotSmall_eq, dotSmall_eq, addf_apply, addf_apply, rows_apply]
  rfl

/-- The rectifier as a comparison and a select is the leaky rectifier of the entry. -/
theorem lrelu_apply (x : FVec Ideal S10000x128 .f32) (i : S10000x128.Idx) : lrelu x i = Sage.leaky (x i) := by
  unfold lrelu
  rw [select_apply, cmpf_apply, mulf_apply, Ideal.cmpf_def]
  rw [congrFun (splat_eq _ _) i, congrFun (splat_eq _ _) i]
  rfl

/-- The residual projection with its bias, read at an index. -/
theorem resid_apply (h : FVec Ideal S10000x128 .f32) (wr : FVec Ideal S128x128 .f32) (br : FVec Ideal S128 .f32)
    (i : S10000x128.Idx) : resid h wr br i = MM h wr i + br (ix1 (i 1)) := by
  unfold resid
  rw [dotSmall_eq, addf_apply, rows_apply]

theorem mid_eq (adj : FVec Ideal S10000x10000 .f32) (W : FVec Ideal S10000x128 .f32) (bl : FVec Ideal S128 .f32)
    (ws0 wn0 : FVec Ideal S128x128 .f32) (b0 : FVec Ideal S128 .f32) (wr0 : FVec Ideal S128x128 .f32)
    (br0 : FVec Ideal S128 .f32) :
    mid adj W bl ws0 wn0 b0 wr0 br0 = Sage.layerAct adj (Sage.feat W bl) ws0 wn0 b0 wr0 br0 := by
  funext i
  unfold mid
  rw [addf_apply, lrelu_apply, resid_apply, sage_eq, pe_eq, Sage.add_residual]
  rfl

theorem last_eq (adj : FVec Ideal S10000x10000 .f32) (h : FVec Ideal S10000x128 .f32) (ws1 wn1 : FVec Ideal S128x128 .f32)
    (b1 : FVec Ideal S128 .f32) (wr1 : FVec Ideal S128x128 .f32) (br1 : FVec Ideal S128 .f32) :
    last adj h ws1 wn1 b1 wr1 br1 = Sage.layerLin adj h ws1 wn1 b1 wr1 br1 := by
  funext i
  unfold last
  rw [addf_apply, resid_apply, sage_eq, Sage.add_residual]
  rfl

end Cert.ReferenceIdeal.RefValue

end
-- ==== Proof.lean ====
/-
  Two stacked mean-aggregation graph layers with residual projections, computed by a Pallas kernel (one blocked pass over
  the dense adjacency matrix per layer) and by a plain reference, are the same functions of the inputs on the extended
  reals.  With adj the n × n adjacency weights and h the feature rows, a layer is

      h·Ws + ((adj·h) / max(ε, row sums of adj))·Wn + b,

  the first one followed by the leaky rectifier; each layer then adds h·Wr + br.  The input features are W + b: the
  reference multiplies W by the identity matrix first, and 1·x = x, 0·x = 0 hold for every extended real, so that product
  is W.  The kernel computes each layer block of 400 rows by block from the whole feature matrix; a row of a product
  depends on that row of the left factor only, so the blocks are the rows of the whole-array layer.  The kernel adds the
  residual's two parts one after the other where the reference adds their sum: addition of extended reals is associative.
  No step needs the inputs to be finite.
-/
import proofs.«131085_g64330020159590_cont_9to1_m_570_2_alg».proof.Defs
import proofs.«131085_g64330020159590_cont_9to1_m_570_2_alg».proof.Proof.Gen.Kernel
import proofs.«131085_g64330020159590_cont_9to1_m_570_2_alg».proof.Proof.Gen.Kernel.Frame
import proofs.«131085_g64330020159590_cont_9to1_m_570_2_alg».proof.Proof.Gen.KernelIdeal
import proofs.«131085_g64330020159590_cont_9to1_m_570_2_alg».proof.Proof.Gen.KernelIdeal.Frame
import proofs.«131085_g64330020159590_cont_9to1_m_570_2_alg».proof.Proof.Gen.ReferenceIdeal
import proofs.«131085_g64330020159590_cont_9to1_m_570_2_alg».proof.Proof.Gen.Pre_finite_inputs
import proofs.«131085_g64330020159590_cont_9to1_m_570_2_alg».proof.Proof.KRun
import proofs.«131085_g64330020159590_cont_9to1_m_570_2_alg».proof.Proof.KHost
import proofs.«131085_g64330020159590_cont_9to1_m_570_2_alg».proof.Proof.RefRun
import proofs.«131085_g64330020159590_cont_9to1_m_570_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame of its two regions. -/
theorem frame_k [Cert.Kernel.Facts] [Cert.Pre_finite_inputs.Facts] : Cert.frame_Kernel := fun m ρ _ => Cert.Kernel.Gen.frame m ρ

/-- So does the idealized kernel. -/
theorem frame_ki [Cert.KernelIdeal.Facts] [Cert.Pre_finite_inputs.Facts] : Cert.frame_KernelIdeal := fun m ρ _ => Cert.KernelIdeal.Gen.frame m ρ

/-- The reference is a straight line of host operations: its run names the results and keeps the arguments. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2.2.2) (Cert.ReferenceIdeal.RefRun.run m ρ)

/-- Both programs end with the last layer applied to the first layer's result, and the first layer's result: the
    kernel's two pallas_calls each leave one layer of the arrays they find (the first finds W plus the bias, the
    second finds the first one's output); the reference's operations compose to the same two functions, the identity
    matrix times W being W and the residual added as one summand being the residual's two parts added in turn. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Sage.layerLin (m ((c.tc : Thread Cert.KernelIdeal.nD Cert.KernelIdeal.τ).loc Cert.KernelIdeal.main_arg0)) (Cert.KernelIdeal.KHost.midSpec m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.KernelIdeal.KHost.midSpec m c,
    fun c => Cert.Sage.layerLin (m ((c.tc : Thread Cert.KernelIdeal.nD Cert.KernelIdeal.τ).loc Cert.KernelIdeal.main_arg0)) (Cert.KernelIdeal.KHost.midSpec m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run (Cert.KernelIdeal.defs (F := Ideal)) _ _).mono
      (fun r h c => ⟨(h c).1.trans (Cert.KernelIdeal.KHost.W4_v8 m ρ c), (h c).2.1.trans (Cert.KernelIdeal.KHost.W4_v5 m ρ c),
        (h c).2.2.1.trans (Cert.KernelIdeal.KHost.W4_v8 m ρ c), (h c).2.2.2⟩)
      (Cert.KernelIdeal.KRun.run m ρ)
  · have hlast : ∀ c : Dev Cert.ReferenceIdeal.nD,
        Cert.ReferenceIdeal.RefTerms.last (m' ((c.tc : Thread Cert.ReferenceIdeal.nD Cert.ReferenceIdeal.τ).loc Cert.ReferenceIdeal.main_arg0))
          (Cert.ReferenceIdeal.RefTerms.mid (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
          (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        = Cert.Sage.layerLin (m ((c.tc : Thread Cert.KernelIdeal.nD Cert.KernelIdeal.τ).loc Cert.KernelIdeal.main_arg0)) (Cert.KernelIdeal.KHost.midSpec m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := fun c => by
      rw [Cert.ReferenceIdeal.RefValue.last_eq, Cert.ReferenceIdeal.RefValue.mid_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2.1, (hagree c).2.2.2.2.2.2.2.2.2.2.2.1, (hagree c).2.2.2.2.2.2.2.2.2.2.2.2]
      rfl
    have hmid : ∀ c : Dev Cert.ReferenceIdeal.nD,
        Cert.ReferenceIdeal.RefTerms.mid (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.KernelIdeal.KHost.midSpec m c := fun c => by
      rw [Cert.ReferenceIdeal.RefValue.mid_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1]
      rfl
    exact (θ_run (Cert.ReferenceIdeal.defs (F := Ideal)) _ _).mono
      (fun r h c => ⟨(h c).1.trans (hlast c), (h c).2.1.trans (hmid c), (h c).2.2.1.trans (hlast c), (h c).2.2.2⟩)
      (Cert.ReferenceIdeal.RefRun.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
